-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S25x400x10000 : Shape := ⟨3, ![25, 400, 10000]⟩
abbrev S1x128 : Shape := ⟨2, ![1, 128]⟩
abbrev S25x400x128 : Shape := ⟨3, ![25, 400, 128]⟩
abbrev S1x400x10000 : Shape := ⟨3, ![1, 400, 10000]⟩
abbrev S1x400x128 : Shape := ⟨3, ![1, 400, 128]⟩
abbrev S400x10000 : Shape := ⟨2, ![400, 10000]⟩
abbrev S400x128 : Shape := ⟨2, ![400, 128]⟩

abbrev nBuf : Space → Nat
  | .hbm => 11
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S25x400x10000, .f32⟩
  | .hbm, ⟨7, _⟩ => ⟨S1x128, .f32⟩
  | .hbm, ⟨8, _⟩ => ⟨S1x128, .f32⟩
  | .hbm, ⟨9, _⟩ => ⟨S25x400x128, .f32⟩
  | .hbm, ⟨10, _⟩ => ⟨S10000x128, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x400x128, .f32⟩
  | .local _ .vmem, ⟨8, _⟩ => ⟨S1x400x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_4 : BitVec 32 := 0#32
  let v8 : BitVec 1 := Scalar.cmpi .eq arg0 c0_i32_4
  let v9 : BitVec 32 := Scalar.extui v8
  let c0_i32_5 : BitVec 32 := 0#32
  let v10 : BitVec 1 := Scalar.cmpi .ne v9 c0_i32_5
  v10

def k0_off1 (i : grid0.Coords) : Fin 2 → Nat :=
  let arg1 : BitVec 32 := BitVec.ofNat 32 (i 1).val
  let c400_i32 : BitVec 32 := 400#32
  let v28 : BitVec 32 := Scalar.muli arg1 c400_i32
  let v29 : Index := Scalar.indexCast v28
  let c0_15 : Index := 0#32
  ![v29.toNat, 0]
def k0_cond4 (i : grid0.Coords) : BitVec 1 :=
  let arg0 : BitVec 32 := BitVec.ofNat 32 (i 0).val
  let c1_i32_8 : BitVec 32 := 1#32
  let v16 : BitVec 1 := Scalar.cmpi .eq arg0 c1_i32_8
  let v17 : BitVec 32 := Scalar.extui v16
  let c0_i32_9 : BitVec 32 := 0#32
  let v18 : BitVec 1 := Scalar.cmpi .ne v17 c0_i32_9
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S10000x10000_S25x400x10000 : S10000x10000.ShapeCasts S25x400x10000
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S1x400x128_S1x400x128_0_0_0 : ∀ a, (![0, 0, 0] : Fin 3 → Nat) a + S1x400x128.size a ≤ S1x400x128.size a
  h_S1x400x128 : 0 < S1x400x128.numel
  shapeCasts_S1x400x128_S400x128 : S1x400x128.ShapeCasts S400x128
  shapeCasts_S400x128_S1x400x128 : S400x128.ShapeCasts S1x400x128
  shapeCasts_S25x400x128_S10000x128 : S25x400x128.ShapeCasts S10000x128
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off1_packedbf16 : ∀ i : grid0.Coords, ∀ (k0_h2 : k0_cond2 i = 1#1), (Rect.unit (s := S10000x128) (k0_off1 i) S400x128.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S25x400x10000.size a
  hwx0_0 : ∀ i : grid0.Coords, EltTy.bits .f32 = 32 ∨ (Rect.block (s := S25x400x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x400x128.size a ≤ S25x400x128.size a
  hwx0_6 : ∀ i : grid0.Coords, EltTy.bits .f32 = 32 ∨ (Rect.block (s := S25x400x128) S1x400x128.size (cc0_transform_6 i) (hinb0_6 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S128x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Words.Cases.lean ====
/-
  The grid of the one kernel launch has 50 points, t = 25·p + i with p the pass (0 or 1) and i the row block (0 … 24).
  The body has four conditionals on (p, i):
    1. p = 0 ∧ i = 0 : compute x·W1ᵀ into the first scratch;
    2. p = 0         : store block i of layer 1 into the second scratch;
    3. p = 1 ∧ i = 0 : compute (layer 1)·W2ᵀ into the third scratch;
    4. p = 1         : store block i of the result into the output's staging buffer.
  So the points fall into four cases: t = 0 (1 and 2), 1 ≤ t ≤ 24 (2 only), t = 25 (3 and 4), 26 ≤ t ≤ 49 (4 only).
  This module states the conditions, decides them over the grid in closed form, and says where the output window is
  idle (the whole first pass) and where it is stored (the whole second pass).
-/
import proofs.«124123_g37426345017912_cont_8to1_b_1199_19_alg».proof.Proof.Gen.Kernel.Frame
import proofs.«124123_g37426345017912_cont_8to1_b_1199_19_alg».proof.Proof.Gen.Kernel.Skeleton
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions -/

/-- First point of the first pass. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first pass. -/
abbrev cond2 (i : grid0.Coords) : Prop := k0_cond2 i = 1#1
/-- First point of the second pass. -/
abbrev cond3 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- The second pass. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-- The row offset of the block of layer 1 stored at a point of the first pass: 400 · i, and i = t there. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle -/

theorem liveAt_in : ∀ (w : Fin 7), w.val < 6 → ∀ t : Fin cfg0.N, cfg0.idle w (grid0.coords t) = false := by decide +kernel
/-- In the first pass the output window is idle (nothing is stored into its staging buffer) … -/
theorem idleAt6 : ∀ t : Fin cfg0.N, t.val < 25 → cfg0.idle 6 (grid0.coords t) = true := by decide +kernel
/-- … and its block is not written back. -/
theorem noFlush6 : ∀ t : Fin cfg0.N, t.val < 25 → (cfg0.win 6).flush t = false := by decide +kernel
/-- In the second pass it is live. -/
theorem liveAt6 : ∀ t : Fin cfg0.N, 25 ≤ t.val → cfg0.idle 6 (grid0.coords t) = false := by decide +kernel

/-! ## The memrefs the body is called with -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x400x128 .f32 := win0_6.stage (cfg0.slots t 6)
abbrev hs6 (t : Fin cfg0.N) : (ms6 t).IsWhole := hstage0_6 ((cfg0.slots t 6).cast nbuf0_6)
/-- The three scratch buffers: x·W1ᵀ, layer 1, (layer 1)·W2ᵀ. -/
abbrev sc0 : Memref sig .tc .vmem S10000x128 .bf16 := Memref.whole cc0_scratch0
abbrev sc1 : Memref sig .tc .vmem S10000x128 .bf16 := Memref.whole cc0_scratch1
abbrev sc2 : Memref sig .tc .vmem S10000x128 .bf16 := Memref.whole cc0_scratch2

/-- What the launch hands the region, with the three scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.Kernel.Body

end
-- ==== Proof.Words.RunA.lean ====
/-
  The body at the first point (t = 0): the first and second conditionals are taken. It computes x·W1ᵀ from the whole x
  and W1 and stores it over the whole first scratch, then reads it back, and stores rows 0 … 399 of layer 1 into the
  second scratch. The third scratch and the output's staging buffer are handed back as found.
-/
import proofs.«124123_g37426345017912_cont_8to1_b_1199_19_alg».proof.Proof.Words.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole)
    (hc1 : cond1 i) (hc2 : cond2 i) (hc3 : ¬cond3 i) (hc4 : ¬cond4 i)
    (x0 : Vec F S1x400x10000 .f32) (x1 : Vec F S10000x128 .f32) (x2 : Vec F S128x128 .f32) (x3 : Vec F S1x128 .f32) (x4 : Vec F S128x128 .f32) (x5 : Vec F S1x128 .f32) :
    Σ' (LS0 : List (View.Piece (Elt F) S10000x128 .bf16)), { LS1 : List (View.Piece (Elt F) S10000x128 .bf16) //
      ∀ (xi6 : Vec F S1x400x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun xi6 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexists _; isplitr; · ipureintro; exact hfs2
    iexact HS2

end Cert.Kernel.Body

end
-- ==== Proof.Words.RunB.lean ====
/-
  The body at a point 1 ≤ t ≤ 24 of the first pass: only the second conditional is taken. It reads the adjacency's row
  block, the first scratch (x·W1ᵀ) and the bias, and stores 400 rows of layer 1 into the second scratch at row 400·i;
  everything else is handed back as found. The second scratch comes back as its previous contents with that one
  piece written over them.
-/
import proofs.«124123_g37426345017912_cont_8to1_b_1199_19_alg».proof.Proof.Words.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole)
    (hc1 : ¬cond1 i) (hc2 : cond2 i) (hc3 : ¬cond3 i) (hc4 : ¬cond4 i)
    (x0 : Vec F S1x400x10000 .f32) (x1 : Vec F S10000x128 .f32) (x2 : Vec F S128x128 .f32) (x3 : Vec F S1x128 .f32) (x4 : Vec F S128x128 .f32) (x5 : Vec F S1x128 .f32) (xs0 : Vec F S10000x128 .bf16) (xs1 : Vec F S10000x128 .bf16) :
    { LS1 : List (View.Piece (Elt F) S10000x128 .bf16) //
      ∀ (xi6 : Vec F S1x400x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
                ∗ (arg10.view.loc (c : Thread nD τ) ↦[arg10.view.set]{fullShare} arg10.view.writes (Elt F) (harg10.unread xs1) LS1)
                ∗ (∃ d, owns (c : Thread nD τ) arg11 fullShare d)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun xi6 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%ds2, %fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexact HS1
    iexists _; iexists _; isplitr; · ipureintro; exact hfs2
    iexact HS2

end Cert.Kernel.Body

end
-- ==== Proof.Words.RunC.lean ====
/-
  The body at the first point of the second pass (t = 25): the third and fourth conditionals are taken. It reads the
  whole second scratch (layer 1) and W2, stores (layer 1)·W2ᵀ over the whole third scratch, reads it back, and stores
  the first 400-row block of the result over the whole staging buffer of the output.
-/
import proofs.«124123_g37426345017912_cont_8to1_b_1199_19_alg».proof.Proof.Words.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole)
    (hc1 : ¬cond1 i) (hc2 : ¬cond2 i) (hc3 : cond3 i) (hc4 : cond4 i)
    (x0 : Vec F S1x400x10000 .f32) (x1 : Vec F S10000x128 .f32) (x2 : Vec F S128x128 .f32) (x3 : Vec F S1x128 .f32) (x4 : Vec F S128x128 .f32) (x5 : Vec F S1x128 .f32) (xs1 : Vec F S10000x128 .bf16) :
    Σ' (L6 : List (View.Piece (Elt F) S1x400x128 .f32)), { LS2 : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; iexists _; isplitr; · ipureintro; exact hfs0
      iexact HS0
    isplitl [HS1]
    · iexists _; isplitr; · ipureintro; exact harg10.read_unread _
      iexact HS1
    iexists _; iexact HS2

end Cert.Kernel.Body

end
-- ==== Proof.Words.RunD.lean ====
/-
  The body at a point 26 ≤ t ≤ 49 of the second pass: only the fourth conditional is taken. It reads the adjacency's
  row block, the third scratch ((layer 1)·W2ᵀ) and the second bias, and stores block i of the result over the whole
  staging buffer of the output.
-/
import proofs.«124123_g37426345017912_cont_8to1_b_1199_19_alg».proof.Proof.Words.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole)
    (hc1 : ¬cond1 i) (hc2 : ¬cond2 i) (hc3 : ¬cond3 i) (hc4 : cond4 i)
    (x0 : Vec F S1x400x10000 .f32) (x1 : Vec F S10000x128 .f32) (x2 : Vec F S128x128 .f32) (x3 : Vec F S1x128 .f32) (x4 : Vec F S128x128 .f32) (x5 : Vec F S1x128 .f32) (xs2 : Vec F S10000x128 .bf16) :
    { L6 : List (View.Piece (Elt F) S1x400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d) ∗ owns (c : Thread nD τ) arg11 fullShare xs2) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, %hfs0, HS0⟩, ⟨%ds1, %fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg11.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; iexists _; isplitr; · ipureintro; exact hfs0
      iexact HS0
    isplitl [HS1]
    · iexists _; iexists _; isplitr; · ipureintro; exact hfs1
      iexact HS1
    iexists _; isplitr; · ipureintro; exact harg11.read_unread _
    iexact HS2

end Cert.Kernel.Body

end
-- ==== Proof.Words.Pieces.lean ====
/-
  What each of the four cases of the body stores, as a list of (rectangle, value) pieces in closed form over the
  values the body loaded: the stored values are the skeleton's payloads of the loaded blocks, a whole-buffer load
  reads the buffer's contents, and a load of a buffer just stored whole reads the stored value back.
    * t = 0       : first scratch ← payload 1 of (x, W1), whole; second scratch rows [400·i, 400·i + 400) ← payload 3
                    of (adjacency block, that first value, b1);
    * 1 ≤ t ≤ 24  : second scratch rows [400·i, 400·i + 400) ← payload 3 of (adjacency block, first scratch, b1);
    * t = 25      : third scratch ← payload 4 of (second scratch, W2), whole; output block ← payload 5 of (adjacency
                    block, that third value, b2), whole;
    * 26 ≤ t ≤ 49 : output block ← payload 5 of (adjacency block, third scratch, b2), whole.
-/
import proofs.«124123_g37426345017912_cont_8to1_b_1199_19_alg».proof.Proof.Words.RunA
import proofs.«124123_g37426345017912_cont_8to1_b_1199_19_alg».proof.Proof.Words.RunB
import proofs.«124123_g37426345017912_cont_8to1_b_1199_19_alg».proof.Proof.Words.RunC
import proofs.«124123_g37426345017912_cont_8to1_b_1199_19_alg».proof.Proof.Words.RunD
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole) (x0 : Vec F S1x400x10000 .f32) (x1 : Vec F S10000x128 .f32) (x2 : Vec F S128x128 .f32) (x3 : Vec F S1x128 .f32) (x4 : Vec F S128x128 .f32) (x5 : Vec F S1x128 .f32) (xs0 xs1 xs2 : Vec F S10000x128 .bf16)

theorem hz2 : (![0, 0] : Fin 2 → ℕ) = fun _ => 0 := by funext a; fin_cases a <;> rfl
theorem hz3 : (![0, 0, 0] : Fin 3 → ℕ) = fun _ => 0 := by funext a; fin_cases a <;> rfl

theorem piecesB (hc1 : ¬cond1 i) (hc2 : cond2 i) (hc3 : ¬cond3 i) (hc4 : ¬cond4 i) :
    (runB (F := F) c i arg2 harg2 arg3 harg3 arg4 harg4 arg5 harg5 arg6 harg6 arg7 harg7 arg8 harg8 arg9 harg9 arg10 harg10 arg11 harg11 hc1 hc2 hc3 hc4 x0 x1 x2 x3 x4 x5 xs0 xs1).1
      = [⟨Rect.unit (s := S10000x128) (k0_off1 i) S400x128.size (k0_off1_inb i hc2), k0_pay3 x0 xs0 x3⟩] := by
  unfold runB
  dsimp only
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesA0 (hc1 : cond1 i) (hc2 : cond2 i) (hc3 : ¬cond3 i) (hc4 : ¬cond4 i) :
    (runA (F := F) c i arg2 harg2 arg3 harg3 arg4 harg4 arg5 harg5 arg6 harg6 arg7 harg7 arg8 harg8 arg9 harg9 arg10 harg10 arg11 harg11 hc1 hc2 hc3 hc4 x0 x1 x2 x3 x4 x5).1
      = [⟨Rect.unit (s := S10000x128) ![0, 0] S10000x128.size inb_S10000x128_S10000x128_0_0, k0_pay1 x1 x2⟩] := by
  unfold runA
  dsimp only
  unfold runA.sl.HS0_1
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesA1 (hc1 : cond1 i) (hc2 : cond2 i) (hc3 : ¬cond3 i) (hc4 : ¬cond4 i) :
    (runA (F := F) c i arg2 harg2 arg3 harg3 arg4 harg4 arg5 harg5 arg6 harg6 arg7 harg7 arg8 harg8 arg9 harg9 arg10 harg10 arg11 harg11 hc1 hc2 hc3 hc4 x0 x1 x2 x3 x4 x5).2.1
      = [⟨Rect.unit (s := S10000x128) (k0_off1 i) S400x128.size (k0_off1_inb i hc2), k0_pay3 x0 (k0_pay1 x1 x2) x3⟩] := by
  unfold runA
  dsimp only
  unfold runA.sl.v19 runA.sl.HS0_1
  rw [View.readCov_unit_zero (S := S10000x128) arg9.view hz2]
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesC2 (hc1 : ¬cond1 i) (hc2 : ¬cond2 i) (hc3 : cond3 i) (hc4 : cond4 i) :
    (runC (F := F) c i arg2 harg2 arg3 harg3 arg4 harg4 arg5 harg5 arg6 harg6 arg7 harg7 arg8 harg8 arg9 harg9 arg10 harg10 arg11 harg11 hc1 hc2 hc3 hc4 x0 x1 x2 x3 x4 x5 xs1).2.1
      = [⟨Rect.unit (s := S10000x128) ![0, 0] S10000x128.size inb_S10000x128_S10000x128_0_0, k0_pay4 xs1 x4⟩] := by
  unfold runC
  dsimp only
  unfold runC.sl.HS2_1
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesC6 (hc1 : ¬cond1 i) (hc2 : ¬cond2 i) (hc3 : cond3 i) (hc4 : cond4 i) :
    (runC (F := F) c i arg2 harg2 arg3 harg3 arg4 harg4 arg5 harg5 arg6 harg6 arg7 harg7 arg8 harg8 arg9 harg9 arg10 harg10 arg11 harg11 hc1 hc2 hc3 hc4 x0 x1 x2 x3 x4 x5 xs1).1
      = [⟨Rect.unit (s := S1x400x128) ![0, 0, 0] S1x400x128.size inb_S1x400x128_S1x400x128_0_0_0, k0_pay5 x0 (k0_pay4 xs1 x4) x5⟩] := by
  unfold runC
  dsimp only
  unfold runC.sl.v19 runC.sl.HS2_1
  rw [View.readCov_unit_zero (S := S10000x128) arg11.view hz2]
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesD (hc1 : ¬cond1 i) (hc2 : ¬cond2 i) (hc3 : ¬cond3 i) (hc4 : cond4 i) :
    (runD (F := F) c i arg2 harg2 arg3 harg3 arg4 harg4 arg5 harg5 arg6 harg6 arg7 harg7 arg8 harg8 arg9 harg9 arg10 harg10 arg11 harg11 hc1 hc2 hc3 hc4 x0 x1 x2 x3 x4 x5 xs2).1
      = [⟨Rect.unit (s := S1x400x128) ![0, 0, 0] S1x400x128.size inb_S1x400x128_S1x400x128_0_0_0, k0_pay5 x0 xs2 x5⟩] := by
  unfold runD
  dsimp only
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

end Cert.Kernel.Body

end
-- ==== Proof.Words.Data.lean ====
/-
  The proof data of the one kernel launch: what the three scratch buffers and the output's staging buffer hold after
  each grid point, and the invariant that carries it from point to point.

  Write  xw = x·W1ᵀ  (payload 1 of the whole x and W1),  h1 = layer 1  (10000 × 128; rows [400·n, 400·n + 400) are
  payload 3 of the adjacency's row block n, xw and b1),  g = h1·W2ᵀ  (payload 4 of h1 and W2), and for a point t of
  the second pass  out(t) = payload 5 of the adjacency's row block at t, g and b2.
  Before point n ≥ 1:
    * the first scratch holds xw as long as it is still read (n ≤ 25);
    * as long as it is still read (n ≤ 25) the second scratch holds the rows of h1 stored so far, blocks 0 … n − 1;
      its other rows hold anything;
    * the third scratch holds g once it has been stored (n ≥ 26).
  Before point 0 the three hold anything. The output's staging buffer is idle during the first pass and holds out(t)
  after each point t of the second.
-/
import proofs.«124123_g37426345017912_cont_8to1_b_1199_19_alg».proof.Proof.Words.Pieces
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number n. -/
def pt (n : ℕ) (h : n < 50) : Fin cfg0.N := ⟨n, lt_of_lt_of_eq h N_0.symm⟩

@[simp] theorem pt_val (n : ℕ) (h : n < 50) : (pt n h).val = n := rfl

theorem eq_pt (t : Fin cfg0.N) (h : t.val < 50) : t = pt t.val h := Fin.ext rfl

/-! ## The contents -/

/-- x·W1ᵀ. -/
def sXW (c : Dev nD) : Vec F S10000x128 .bf16 :=
  k0_pay1 (iblk m c 1 (pt 0 (by omega))) (iblk m c 2 (pt 0 (by omega)))

/-- Rows [400·n, 400·n + 400) of layer 1. -/
def blkH1 (c : Dev nD) (n : ℕ) (hn : n < 25) : Vec F S400x128 .bf16 :=
  k0_pay3 (iblk m c 0 (pt n (by omega))) (sXW m c) (iblk m c 3 (pt n (by omega)))

/-- The buffer d holds the first k row blocks of layer 1. -/
def RowsOK (c : Dev nD) (k : ℕ) (d : Vec F S10000x128 .bf16) : Prop :=
  ∀ (n : ℕ) (_ : n < k) (hn : n < 25) (y : S10000x128.Idx) (x : S400x128.Idx),
    (y (0 : Fin 2)).val = 400 * n + (x (0 : Fin 2)).val → (y (1 : Fin 2)).val = (x (1 : Fin 2)).val → d y = blkH1 m c n hn x

/-- Layer 1, whole: row r is row r mod 400 of block r / 400. -/
def sH1 (c : Dev nD) : Vec F S10000x128 .bf16 := fun y =>
  blkH1 m c ((y (0 : Fin 2)).val / 400) (by have h : (y (0 : Fin 2)).val < 10000 := (y (0 : Fin 2)).isLt; omega)
    (ValueIdx.ix2 (n0 := 400) (n1 := 128) ⟨(y (0 : Fin 2)).val % 400, Nat.mod_lt _ (by norm_num)⟩ ⟨(y (1 : Fin 2)).val, (y (1 : Fin 2)).isLt⟩)

/-- A buffer holding all 25 row blocks holds layer 1. -/
theorem eq_sH1_of_rows (c : Dev nD) (d : Vec F S10000x128 .bf16) (h : RowsOK m c 25 d) : d = sH1 m c := by
  funext y
  have hy : (y (0 : Fin 2)).val < 10000 := (y (0 : Fin 2)).isLt
  exact h ((y (0 : Fin 2)).val / 400) (by omega) (by omega) y _
    (by show (y (0 : Fin 2)).val = 400 * ((y (0 : Fin 2)).val / 400) + (y (0 : Fin 2)).val % 400; omega) rfl

theorem RowsOK.mono (c : Dev nD) {k k' : ℕ} (hk : k' ≤ k) {d : Vec F S10000x128 .bf16} (h : RowsOK m c k d) : RowsOK m c k' d :=
  fun n hn hn' y x h0 h1 => h n (by omega) hn' y x h0 h1

/-- (layer 1)·W2ᵀ. -/
def sG (c : Dev nD) : Vec F S10000x128 .bf16 := k0_pay4 (sH1 m c) (iblk m c 4 (pt 25 (by omega)))

/-- The block of the result stored at point t (of the second pass). -/
def outBlk (c : Dev nD) (t : Fin cfg0.N) : Vec F S1x400x128 .f32 := k0_pay5 (iblk m c 0 t) (sG m c) (iblk m c 5 t)

/-! ## Reading a store back -/

/-- One store through the whole buffer, last, leaves its value. -/
theorem read_whole_store {sig' : RefSig} {κ : Kind} {sp : Space} {S : Shape} {e : EltTy} {Val : EltTy → Type}
    (v : View sig' κ sp S e) (f : v.ty.Contents Val) {off : Fin S.rank → ℕ} (h0 : off = fun _ => 0)
    (inb : ∀ a, off a + S.size a ≤ S.size a) (w : (Rect.unit off S.size inb).shape.Idx → Val e) (L : List (View.Piece Val S e)) :
    v.read Val (v.writes Val f ((⟨Rect.unit off S.size inb, w⟩ : View.Piece Val S e) :: L)) = w := by
  subst h0
  funext y
  exact View.read_writes_cons_unit_of_mem v f inb w L y y rfl (fun a => (Nat.zero_add _).symm)

/-- Storing block t of layer 1 at rows [400·t, 400·t + 400) over a buffer that holds blocks 0 … t − 1 gives one that
    holds blocks 0 … t: the new rows read the stored value, the others what they held. -/
theorem rows_step (c : Dev nD) (t : Fin cfg0.N) (ht : t.val < 25) (hc2 : cond2 (grid0.coords t))
    (f : sc1.view.ty.Contents (Elt F)) (xw : Vec F S10000x128 .bf16) (hxw : xw = sXW m c)
    (hprev : RowsOK m c t.val (sc1.view.read (Elt F) f)) :
    RowsOK m c (t.val + 1) (sc1.view.read (Elt F) (sc1.view.writes (Elt F) f
      [⟨Rect.unit (s := S10000x128) (k0_off1 (grid0.coords t)) S400x128.size (k0_off1_inb (grid0.coords t) hc2),
        k0_pay3 (iblk m c 0 t) xw (iblk m c 3 t)⟩])) := by
  subst hxw
  intro n hn hn' y x hy0 hy1
  have hx : (x (0 : Fin 2)).val < 400 := (x (0 : Fin 2)).isLt
  by_cases hnt : n = t.val
  · subst hnt
    exact (View.read_writes_cons_rows_of_mem (d := ![10000, 128]) sc1.view f (off := k0_off1 (grid0.coords t))
      (size := S400x128.size) (o := 400 * t.val) (k0_off1_inb (grid0.coords t) hc2)
      (k0_pay3 (iblk m c 0 t) (sXW m c) (iblk m c 3 t)) [] y x (off1_eq t ht) hy0 hy1).trans rfl
  · exact (View.read_writes_cons_rows_of_not_mem (d := ![10000, 128]) sc1.view f (off := k0_off1 (grid0.coords t))
      (size := S400x128.size) (o := 400 * t.val) (W := 400) (k0_off1_inb (grid0.coords t) hc2)
      (k0_pay3 (iblk m c 0 t) (sXW m c) (iblk m c 3 t)) [] y (off1_eq t ht) rfl (Or.inl (by omega))).trans
      (hprev n (by omega) hn' y x hy0 hy1)

/-! ## The invariant -/

/-- The invariant before point n ≥ 1. -/
def PhiU (c : Dev nD) (n : ℕ) : sProp 𝕄 :=
  iprop(iprop((∃ d0, ⌜n ≤ 25 → d0 = sXW m c⌝ ∗ owns (c : Thread nD τ) sc0 fullShare d0)
      ∗ (∃ d1, ⌜n ≤ 25 → RowsOK m c n d1⌝ ∗ owns (c : Thread nD τ) sc1 fullShare d1)
      ∗ (∃ d2, ⌜26 ≤ n → d2 = sG m c⌝ ∗ owns (c : Thread nD τ) sc2 fullShare d2)) ∗ (∃ r, prngReg c r))

/-- The invariant before point n: what the launch hands the region before the first point, then `PhiU`. -/
def PhiS (c : Dev nD) : (n : ℕ) → n ≤ cfg0.N → sProp 𝕄
  | 0, _ => Pipeline.ΦA spec0 c
  | n + 1, _ => PhiU m c (n + 1)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = PhiU m c (n + 1) := rfl

theorem PhiS_pos (c : Dev nD) (n : ℕ) (h : n ≤ cfg0.N) (hz : n ≠ 0) : PhiS m c n h = PhiU m c n := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.Kernel.Body

end
-- ==== Proof.Words.Obligation.lean ====
/-
  The body obligation of the launch and the run of the whole program.

  At a point the body is handed the invariant and the seven staging buffers (each input at its block, the output's at
  whatever it held) and must hand back the next invariant and the buffers, the output's at its block of the result
  in the second pass. The four cases of the grid are taken one by one: each applies that case's run of the body and
  re-establishes the invariant from what the run stored — a whole-buffer store leaves its value, the row store
  extends the rows of layer 1 by one block. The launch theorem then runs the whole grid; the host lines before and
  after the launch only reshape.
-/
import proofs.«124123_g37426345017912_cont_8to1_b_1199_19_alg».proof.Proof.Words.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in each staging buffer -/

theorem leaves_in0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt_in 0 (by decide) t], after_0]
theorem leaves_in1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt_in 1 (by decide) t], after_1]
theorem leaves_in2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt_in 2 (by decide) t], after_2]
theorem leaves_in3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveAt_in 3 (by decide) t], after_3]
theorem leaves_in4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [liveAt_in 4 (by decide) t], after_4]
theorem leaves_in5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [liveAt_in 5 (by decide) t], after_5]
theorem leaves_6 (c : Dev nD) (t : Fin cfg0.N) (h : 25 ≤ t.val) :
    (dats m 0 c).leavesExact 6 t = owns (c : Thread nD τ) (ms6 t) fullShare (outBlk m c t) := by
  rw [show (dats m 0 c).leavesExact 6 t = owns (c : Thread nD τ) (ms6 t) fullShare ((dats m 0 c).after 6 t) from by
    unfold Dat.leavesExact; rw [liveAt6 t h], after_6]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_in5]
  rw [PhiS_castSucc m c t]
  have hN : t.val < 50 := lt_of_lt_of_eq t.isLt (show cfg0.N = 50 from N_0)
  by_cases h0 : t.val = 0
  · -- the first point
    have hgt : pt 0 (by decide) = t := Fin.ext h0.symm
    have h0' : t.val = 0 := h0
    have hc1 : cond1 (grid0.coords t) := (hcond1 t).mpr h0'
    have hc2 : cond2 (grid0.coords t) := (hcond2 t).mpr (by omega)
    have hc3 : ¬cond3 (grid0.coords t) := fun h => by have := (hcond3 t).mp h; omega
    have hc4 : ¬cond4 (grid0.coords t) := fun h => by have := (hcond4 t).mp h; omega
    rw [Dat.leavesExact_idle (dats m 0 c) 6 t (idleAt6 t (by omega)) (noFlush6 t (by omega))]
    rw [PhiS_zero m c _ _ h0', PhiA_eq]
    unfold PhiU
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) hc1 hc2 hc3 hc4 (iblk m c 0 t) (iblk m c 1 t) (iblk m c 2 t) (iblk m c 3 t) (iblk m c 4 t) (iblk m c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%g0, HS0⟩, ⟨%g1, HS1⟩, ⟨%e2, HS2⟩⟩
    isplitl [HS0 HS1 HS2 Hg]
    · isplitr [Hg]
      · isplitl [HS0]
        · iexists (sXW m c); isplitr
          · ipureintro; intro _; rfl
          unfold owns; iexists _; isplitr
          swap; · iexact HS0
          ipureintro
          rw [piecesA0, read_whole_store _ _ hz2]
          subst hgt; rfl
        isplitl [HS1]
        · iexists _; isplitr
          swap
          · unfold owns; iexists _; isplitr
            swap; · iexact HS1
            ipureintro; rfl
          ipureintro; intro _
          rw [piecesA1]
          have hr := rows_step m c t (by omega) hc2 g1 (k0_pay1 (iblk m c 1 t) (iblk m c 2 t)) (by subst hgt; rfl)
            (fun n hn => by omega)
          exact hr
        · iexists e2; isplitr
          · ipureintro; intro h; omega
          iexact HS2
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h2 : t.val < 25
    · -- a later point of the first pass
      have hc1 : ¬cond1 (grid0.coords t) := fun h => h0 ((hcond1 t).mp h)
      have hc2 : cond2 (grid0.coords t) := (hcond2 t).mpr h2
      have hc3 : ¬cond3 (grid0.coords t) := fun h => by have := (hcond3 t).mp h; omega
      have hc4 : ¬cond4 (grid0.coords t) := fun h => by have := (hcond4 t).mp h; omega
      rw [Dat.leavesExact_idle (dats m 0 c) 6 t (idleAt6 t h2) (noFlush6 t h2)]
      rw [PhiS_pos m c _ _ h0]
      unfold PhiU
      iintro ⟨⟨⟨⟨%e0, %he0, HS0⟩, ⟨%e1, %he1, HS1⟩, ⟨%e2, -, HS2⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl := he0 (by omega)
      iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) hc1 hc2 hc3 hc4 (iblk m c 0 t) (iblk m c 1 t) (iblk m c 2 t) (iblk m c 3 t) (iblk m c 4 t) (iblk m c 5 t) (sXW m c) e1).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexists _; iexact HS2
      iintro ⟨H0, H1, H2, H3, H4, H5, H6, HS0, HS1, ⟨%g2, HS2⟩⟩
      isplitl [HS0 HS1 HS2 Hg]
      · isplitr [Hg]
        · isplitl [HS0]
          · iexists (sXW m c); isplitr
            · ipureintro; intro _; rfl
            iexact HS0
          isplitl [HS1]
          · iexists _; isplitr
            swap
            · unfold owns; iexists _; isplitr
              swap; · iexact HS1
              ipureintro; rfl
            ipureintro; intro _
            rw [piecesB]
            exact rows_step m c t h2 hc2 _ (sXW m c) rfl (by rw [Memref.IsWhole.read_unread]; exact he1 (by omega))
          · iexists g2; isplitr
            · ipureintro; intro h; omega
            iexact HS2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · by_cases h3 : t.val = 25
      · -- the first point of the second pass
        have hgt : pt 25 (by decide) = t := Fin.ext h3.symm
        have h3' : t.val = 25 := h3
        have hc1 : ¬cond1 (grid0.coords t) := fun h => by have := (hcond1 t).mp h; omega
        have hc2 : ¬cond2 (grid0.coords t) := fun h => by have := (hcond2 t).mp h; omega
        have hc3 : cond3 (grid0.coords t) := (hcond3 t).mpr h3'
        have hc4 : cond4 (grid0.coords t) := (hcond4 t).mpr (by omega)
        rw [leaves_6 m c t (by omega)]
        rw [PhiS_pos m c _ _ (by omega)]
        unfold PhiU
        iintro ⟨⟨⟨⟨%e0, -, HS0⟩, ⟨%e1, %he1, HS1⟩, ⟨%e2, -, HS2⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := eq_sH1_of_rows m c e1 (by have := he1 (by omega); rw [h3'] at this; exact this)
        iapply ((runC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) hc1 hc2 hc3 hc4 (iblk m c 0 t) (iblk m c 1 t) (iblk m c 2 t) (iblk m c 3 t) (iblk m c 4 t) (iblk m c 5 t) (sH1 m c)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexact HS1
        isplitl [HS2]; · iexists _; iexact HS2
        iintro ⟨H0, H1, H2, H3, H4, H5, ⟨%g6, H6⟩, ⟨%g0, HS0⟩, HS1, ⟨%g2, HS2⟩⟩
        isplitl [HS0 HS1 HS2 Hg]
        · isplitr [Hg]
          · isplitl [HS0]
            · iexists g0; isplitr
              · ipureintro; intro h; omega
              iexact HS0
            isplitl [HS1]
            · iexists (sH1 m c); isplitr
              · ipureintro; intro h; omega
              iexact HS1
            · iexists (sG m c); isplitr
              · ipureintro; intro _; rfl
              unfold owns; iexists _; isplitr
              swap; · iexact HS2
              ipureintro
              rw [piecesC2, read_whole_store _ _ hz2]
              subst hgt; rfl
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro
        rw [piecesC6, read_whole_store _ _ hz3]
        subst hgt; rfl
      · -- a later point of the second pass
        have hc1 : ¬cond1 (grid0.coords t) := fun h => h0 ((hcond1 t).mp h)
        have hc2 : ¬cond2 (grid0.coords t) := fun h => h2 ((hcond2 t).mp h)
        have hc3 : ¬cond3 (grid0.coords t) := fun h => h3 ((hcond3 t).mp h)
        have hc4 : cond4 (grid0.coords t) := (hcond4 t).mpr (by omega)
        rw [leaves_6 m c t (by omega)]
        rw [PhiS_pos m c _ _ h0]
        unfold PhiU
        iintro ⟨⟨⟨⟨%e0, -, HS0⟩, ⟨%e1, -, HS1⟩, ⟨%e2, %he2, HS2⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := he2 (by omega)
        iapply ((runD c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) hc1 hc2 hc3 hc4 (iblk m c 0 t) (iblk m c 1 t) (iblk m c 2 t) (iblk m c 3 t) (iblk m c 4 t) (iblk m c 5 t) (sG m c)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexists _; iexact HS1
        isplitl [HS2]; · iexact HS2
        iintro ⟨H0, H1, H2, H3, H4, H5, ⟨%g6, H6⟩, ⟨%g0, HS0⟩, ⟨%g1, HS1⟩, HS2⟩
        isplitl [HS0 HS1 HS2 Hg]
        · isplitr [Hg]
          · isplitl [HS0]
            · iexists g0; isplitr
              · ipureintro; intro h; omega
              iexact HS0
            isplitl [HS1]
            · iexists g1; isplitr
              · ipureintro; intro h; omega
              iexact HS1
            · iexists (sG m c); isplitr
              · ipureintro; intro _; rfl
              iexact HS2
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro
        rw [piecesD, read_whole_store _ _ hz3]
        rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  unfold PhiU
  iintro ⟨⟨⟨%e0, -, HS0⟩, ⟨%e1, -, HS1⟩, ⟨%e2, -, HS2⟩⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of the whole program terminates without a fault, every array of the launch ends at
    what the proof data says, every other buffer as the reshape after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.Ideal.Cases.lean ====
/-
  The grid of the one kernel launch has 50 points, t = 25·p + i with p the pass (0 or 1) and i the row block (0 … 24).
  The body has four conditionals on (p, i):
    1. p = 0 ∧ i = 0 : compute x·W1ᵀ into the first scratch;
    2. p = 0         : store block i of layer 1 into the second scratch;
    3. p = 1 ∧ i = 0 : compute (layer 1)·W2ᵀ into the third scratch;
    4. p = 1         : store block i of the result into the output's staging buffer.
  So the points fall into four cases: t = 0 (1 and 2), 1 ≤ t ≤ 24 (2 only), t = 25 (3 and 4), 26 ≤ t ≤ 49 (4 only).
  This module states the conditions, decides them over the grid in closed form, and says where the output window is
  idle (the whole first pass) and where it is stored (the whole second pass).
-/
import proofs.«124123_g37426345017912_cont_8to1_b_1199_19_alg».proof.Proof.Gen.KernelIdeal.Frame
import proofs.«124123_g37426345017912_cont_8to1_b_1199_19_alg».proof.Proof.Gen.KernelIdeal.Skeleton
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions -/

/-- First point of the first pass. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The first pass. -/
abbrev cond2 (i : grid0.Coords) : Prop := k0_cond2 i = 1#1
/-- First point of the second pass. -/
abbrev cond3 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- The second pass. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 25 :=
  (by decide +kernel : ∀ t : Fin grid0.N, cond2 (grid0.coords t) ↔ t.val < 25)
theorem hcond3 : ∀ t : Fin cfg0.N, cond3 (grid0.coords t) ↔ t.val = 25 :=
  (by decide +kernel : ∀ t : Fin grid0.N, cond3 (grid0.coords t) ↔ t.val = 25)
theorem hcond4 : ∀ t : Fin cfg0.N, cond4 (grid0.coords t) ↔ 25 ≤ t.val :=
  (by decide +kernel : ∀ t : Fin grid0.N, cond4 (grid0.coords t) ↔ 25 ≤ t.val)

/-- The row offset of the block of layer 1 stored at a point of the first pass: 400 · i, and i = t there. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-! ## Where the windows are idle -/

theorem liveAt_in : ∀ (w : Fin 7), w.val < 6 → ∀ t : Fin cfg0.N, cfg0.idle w (grid0.coords t) = false := by decide +kernel
/-- In the first pass the output window is idle (nothing is stored into its staging buffer) … -/
theorem idleAt6 : ∀ t : Fin cfg0.N, t.val < 25 → cfg0.idle 6 (grid0.coords t) = true := by decide +kernel
/-- … and its block is not written back. -/
theorem noFlush6 : ∀ t : Fin cfg0.N, t.val < 25 → (cfg0.win 6).flush t = false := by decide +kernel
/-- In the second pass it is live. -/
theorem liveAt6 : ∀ t : Fin cfg0.N, 25 ≤ t.val → cfg0.idle 6 (grid0.coords t) = false := by decide +kernel

/-! ## The memrefs the body is called with -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x400x128 .f32 := win0_6.stage (cfg0.slots t 6)
abbrev hs6 (t : Fin cfg0.N) : (ms6 t).IsWhole := hstage0_6 ((cfg0.slots t 6).cast nbuf0_6)
/-- The three scratch buffers: x·W1ᵀ, layer 1, (layer 1)·W2ᵀ. -/
abbrev sc0 : Memref sig .tc .vmem S10000x128 .bf16 := Memref.whole cc0_scratch0
abbrev sc1 : Memref sig .tc .vmem S10000x128 .bf16 := Memref.whole cc0_scratch1
abbrev sc2 : Memref sig .tc .vmem S10000x128 .bf16 := Memref.whole cc0_scratch2

/-- What the launch hands the region, with the three scratch buffers as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Body

end
-- ==== Proof.Ideal.RunA.lean ====
/-
  The body at the first point (t = 0): the first and second conditionals are taken. It computes x·W1ᵀ from the whole x
  and W1 and stores it over the whole first scratch, then reads it back, and stores rows 0 … 399 of layer 1 into the
  second scratch. The third scratch and the output's staging buffer are handed back as found.
-/
import proofs.«124123_g37426345017912_cont_8to1_b_1199_19_alg».proof.Proof.Ideal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole)
    (hc1 : cond1 i) (hc2 : cond2 i) (hc3 : ¬cond3 i) (hc4 : ¬cond4 i)
    (x0 : Vec F S1x400x10000 .f32) (x1 : Vec F S10000x128 .f32) (x2 : Vec F S128x128 .f32) (x3 : Vec F S1x128 .f32) (x4 : Vec F S128x128 .f32) (x5 : Vec F S1x128 .f32) :
    Σ' (LS0 : List (View.Piece (Elt F) S10000x128 .bf16)), { LS1 : List (View.Piece (Elt F) S10000x128 .bf16) //
      ∀ (xi6 : Vec F S1x400x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun xi6 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexists _; isplitr; · ipureintro; exact hfs2
    iexact HS2

end Cert.KernelIdeal.Body

end
-- ==== Proof.Ideal.RunB.lean ====
/-
  The body at a point 1 ≤ t ≤ 24 of the first pass: only the second conditional is taken. It reads the adjacency's row
  block, the first scratch (x·W1ᵀ) and the bias, and stores 400 rows of layer 1 into the second scratch at row 400·i;
  everything else is handed back as found. The second scratch comes back as its previous contents with that one
  piece written over them.
-/
import proofs.«124123_g37426345017912_cont_8to1_b_1199_19_alg».proof.Proof.Ideal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole)
    (hc1 : ¬cond1 i) (hc2 : cond2 i) (hc3 : ¬cond3 i) (hc4 : ¬cond4 i)
    (x0 : Vec F S1x400x10000 .f32) (x1 : Vec F S10000x128 .f32) (x2 : Vec F S128x128 .f32) (x3 : Vec F S1x128 .f32) (x4 : Vec F S128x128 .f32) (x5 : Vec F S1x128 .f32) (xs0 : Vec F S10000x128 .bf16) (xs1 : Vec F S10000x128 .bf16) :
    { LS1 : List (View.Piece (Elt F) S10000x128 .bf16) //
      ∀ (xi6 : Vec F S1x400x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
                ∗ (arg10.view.loc (c : Thread nD τ) ↦[arg10.view.set]{fullShare} arg10.view.writes (Elt F) (harg10.unread xs1) LS1)
                ∗ (∃ d, owns (c : Thread nD τ) arg11 fullShare d)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun xi6 E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%ds2, %fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexact HS1
    iexists _; iexists _; isplitr; · ipureintro; exact hfs2
    iexact HS2

end Cert.KernelIdeal.Body

end
-- ==== Proof.Ideal.RunC.lean ====
/-
  The body at the first point of the second pass (t = 25): the third and fourth conditionals are taken. It reads the
  whole second scratch (layer 1) and W2, stores (layer 1)·W2ᵀ over the whole third scratch, reads it back, and stores
  the first 400-row block of the result over the whole staging buffer of the output.
-/
import proofs.«124123_g37426345017912_cont_8to1_b_1199_19_alg».proof.Proof.Ideal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole)
    (hc1 : ¬cond1 i) (hc2 : ¬cond2 i) (hc3 : cond3 i) (hc4 : cond4 i)
    (x0 : Vec F S1x400x10000 .f32) (x1 : Vec F S10000x128 .f32) (x2 : Vec F S128x128 .f32) (x3 : Vec F S1x128 .f32) (x4 : Vec F S128x128 .f32) (x5 : Vec F S1x128 .f32) (xs1 : Vec F S10000x128 .bf16) :
    Σ' (L6 : List (View.Piece (Elt F) S1x400x128 .f32)), { LS2 : List (View.Piece (Elt F) S10000x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ owns (c : Thread nD τ) arg10 fullShare xs1 ∗ (∃ f, arg11.view.loc (c : Thread nD τ) ↦[arg11.view.set]{fullShare} arg11.view.writes (Elt F) f LS2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, %hfs0, HS0⟩, ⟨%fs1, %hfs1, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg10.eq_unread hfs1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; iexists _; isplitr; · ipureintro; exact hfs0
      iexact HS0
    isplitl [HS1]
    · iexists _; isplitr; · ipureintro; exact harg10.read_unread _
      iexact HS1
    iexists _; iexact HS2

end Cert.KernelIdeal.Body

end
-- ==== Proof.Ideal.RunD.lean ====
/-
  The body at a point 26 ≤ t ≤ 49 of the second pass: only the fourth conditional is taken. It reads the adjacency's
  row block, the third scratch ((layer 1)·W2ᵀ) and the second bias, and stores block i of the result over the whole
  staging buffer of the output.
-/
import proofs.«124123_g37426345017912_cont_8to1_b_1199_19_alg».proof.Proof.Ideal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole)
    (hc1 : ¬cond1 i) (hc2 : ¬cond2 i) (hc3 : ¬cond3 i) (hc4 : cond4 i)
    (x0 : Vec F S1x400x10000 .f32) (x1 : Vec F S10000x128 .f32) (x2 : Vec F S128x128 .f32) (x3 : Vec F S1x128 .f32) (x4 : Vec F S128x128 .f32) (x5 : Vec F S1x128 .f32) (xs2 : Vec F S10000x128 .bf16) :
    { L6 : List (View.Piece (Elt F) S1x400x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d) ∗ owns (c : Thread nD τ) arg11 fullShare xs2) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, %hfs0, HS0⟩, ⟨%ds1, %fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg11.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; iexists _; isplitr; · ipureintro; exact hfs0
      iexact HS0
    isplitl [HS1]
    · iexists _; iexists _; isplitr; · ipureintro; exact hfs1
      iexact HS1
    iexists _; isplitr; · ipureintro; exact harg11.read_unread _
    iexact HS2

end Cert.KernelIdeal.Body

end
-- ==== Proof.Ideal.Pieces.lean ====
/-
  What each of the four cases of the body stores, as a list of (rectangle, value) pieces in closed form over the
  values the body loaded: the stored values are the skeleton's payloads of the loaded blocks, a whole-buffer load
  reads the buffer's contents, and a load of a buffer just stored whole reads the stored value back.
    * t = 0       : first scratch ← payload 1 of (x, W1), whole; second scratch rows [400·i, 400·i + 400) ← payload 3
                    of (adjacency block, that first value, b1);
    * 1 ≤ t ≤ 24  : second scratch rows [400·i, 400·i + 400) ← payload 3 of (adjacency block, first scratch, b1);
    * t = 25      : third scratch ← payload 4 of (second scratch, W2), whole; output block ← payload 5 of (adjacency
                    block, that third value, b2), whole;
    * 26 ≤ t ≤ 49 : output block ← payload 5 of (adjacency block, third scratch, b2), whole.
-/
import proofs.«124123_g37426345017912_cont_8to1_b_1199_19_alg».proof.Proof.Ideal.RunA
import proofs.«124123_g37426345017912_cont_8to1_b_1199_19_alg».proof.Proof.Ideal.RunB
import proofs.«124123_g37426345017912_cont_8to1_b_1199_19_alg».proof.Proof.Ideal.RunC
import proofs.«124123_g37426345017912_cont_8to1_b_1199_19_alg».proof.Proof.Ideal.RunD
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x400x128 .f32) (harg8 : arg8.IsWhole) (arg9 : Memref sig .tc .vmem S10000x128 .bf16) (harg9 : arg9.IsWhole) (arg10 : Memref sig .tc .vmem S10000x128 .bf16) (harg10 : arg10.IsWhole) (arg11 : Memref sig .tc .vmem S10000x128 .bf16) (harg11 : arg11.IsWhole) (x0 : Vec F S1x400x10000 .f32) (x1 : Vec F S10000x128 .f32) (x2 : Vec F S128x128 .f32) (x3 : Vec F S1x128 .f32) (x4 : Vec F S128x128 .f32) (x5 : Vec F S1x128 .f32) (xs0 xs1 xs2 : Vec F S10000x128 .bf16)

theorem hz2 : (![0, 0] : Fin 2 → ℕ) = fun _ => 0 := by funext a; fin_cases a <;> rfl
theorem hz3 : (![0, 0, 0] : Fin 3 → ℕ) = fun _ => 0 := by funext a; fin_cases a <;> rfl

theorem piecesB (hc1 : ¬cond1 i) (hc2 : cond2 i) (hc3 : ¬cond3 i) (hc4 : ¬cond4 i) :
    (runB (F := F) c i arg2 harg2 arg3 harg3 arg4 harg4 arg5 harg5 arg6 harg6 arg7 harg7 arg8 harg8 arg9 harg9 arg10 harg10 arg11 harg11 hc1 hc2 hc3 hc4 x0 x1 x2 x3 x4 x5 xs0 xs1).1
      = [⟨Rect.unit (s := S10000x128) (k0_off1 i) S400x128.size (k0_off1_inb i hc2), k0_pay3 x0 xs0 x3⟩] := by
  unfold runB
  dsimp only
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesA0 (hc1 : cond1 i) (hc2 : cond2 i) (hc3 : ¬cond3 i) (hc4 : ¬cond4 i) :
    (runA (F := F) c i arg2 harg2 arg3 harg3 arg4 harg4 arg5 harg5 arg6 harg6 arg7 harg7 arg8 harg8 arg9 harg9 arg10 harg10 arg11 harg11 hc1 hc2 hc3 hc4 x0 x1 x2 x3 x4 x5).1
      = [⟨Rect.unit (s := S10000x128) ![0, 0] S10000x128.size inb_S10000x128_S10000x128_0_0, k0_pay1 x1 x2⟩] := by
  unfold runA
  dsimp only
  unfold runA.sl.HS0_1
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesA1 (hc1 : cond1 i) (hc2 : cond2 i) (hc3 : ¬cond3 i) (hc4 : ¬cond4 i) :
    (runA (F := F) c i arg2 harg2 arg3 harg3 arg4 harg4 arg5 harg5 arg6 harg6 arg7 harg7 arg8 harg8 arg9 harg9 arg10 harg10 arg11 harg11 hc1 hc2 hc3 hc4 x0 x1 x2 x3 x4 x5).2.1
      = [⟨Rect.unit (s := S10000x128) (k0_off1 i) S400x128.size (k0_off1_inb i hc2), k0_pay3 x0 (k0_pay1 x1 x2) x3⟩] := by
  unfold runA
  dsimp only
  unfold runA.sl.v19 runA.sl.HS0_1
  rw [View.readCov_unit_zero (S := S10000x128) arg9.view hz2]
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesC2 (hc1 : ¬cond1 i) (hc2 : ¬cond2 i) (hc3 : cond3 i) (hc4 : cond4 i) :
    (runC (F := F) c i arg2 harg2 arg3 harg3 arg4 harg4 arg5 harg5 arg6 harg6 arg7 harg7 arg8 harg8 arg9 harg9 arg10 harg10 arg11 harg11 hc1 hc2 hc3 hc4 x0 x1 x2 x3 x4 x5 xs1).2.1
      = [⟨Rect.unit (s := S10000x128) ![0, 0] S10000x128.size inb_S10000x128_S10000x128_0_0, k0_pay4 xs1 x4⟩] := by
  unfold runC
  dsimp only
  unfold runC.sl.HS2_1
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesC6 (hc1 : ¬cond1 i) (hc2 : ¬cond2 i) (hc3 : cond3 i) (hc4 : cond4 i) :
    (runC (F := F) c i arg2 harg2 arg3 harg3 arg4 harg4 arg5 harg5 arg6 harg6 arg7 harg7 arg8 harg8 arg9 harg9 arg10 harg10 arg11 harg11 hc1 hc2 hc3 hc4 x0 x1 x2 x3 x4 x5 xs1).1
      = [⟨Rect.unit (s := S1x400x128) ![0, 0, 0] S1x400x128.size inb_S1x400x128_S1x400x128_0_0_0, k0_pay5 x0 (k0_pay4 xs1 x4) x5⟩] := by
  unfold runC
  dsimp only
  unfold runC.sl.v19 runC.sl.HS2_1
  rw [View.readCov_unit_zero (S := S10000x128) arg11.view hz2]
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

theorem piecesD (hc1 : ¬cond1 i) (hc2 : ¬cond2 i) (hc3 : ¬cond3 i) (hc4 : cond4 i) :
    (runD (F := F) c i arg2 harg2 arg3 harg3 arg4 harg4 arg5 harg5 arg6 harg6 arg7 harg7 arg8 harg8 arg9 harg9 arg10 harg10 arg11 harg11 hc1 hc2 hc3 hc4 x0 x1 x2 x3 x4 x5 xs2).1
      = [⟨Rect.unit (s := S1x400x128) ![0, 0, 0] S1x400x128.size inb_S1x400x128_S1x400x128_0_0_0, k0_pay5 x0 xs2 x5⟩] := by
  unfold runD
  dsimp only
  simp only [View.readAt_eq_ld, Memref.IsWhole.read_unread, View.ld_unit_zero (S := S1x400x10000) hz3, View.ld_unit_zero (S := S10000x128) hz2, View.ld_unit_zero (S := S1x128) hz2, View.ld_unit_zero (S := S128x128) hz2]

end Cert.KernelIdeal.Body

end
-- ==== Proof.Ideal.Data.lean ====
/-
  The proof data of the one kernel launch: what the three scratch buffers and the output's staging buffer hold after
  each grid point, and the invariant that carries it from point to point.

  Write  xw = x·W1ᵀ  (payload 1 of the whole x and W1),  h1 = layer 1  (10000 × 128; rows [400·n, 400·n + 400) are
  payload 3 of the adjacency's row block n, xw and b1),  g = h1·W2ᵀ  (payload 4 of h1 and W2), and for a point t of
  the second pass  out(t) = payload 5 of the adjacency's row block at t, g and b2.
  Before point n ≥ 1:
    * the first scratch holds xw as long as it is still read (n ≤ 25);
    * as long as it is still read (n ≤ 25) the second scratch holds the rows of h1 stored so far, blocks 0 … n − 1;
      its other rows hold anything;
    * the third scratch holds g once it has been stored (n ≥ 26).
  Before point 0 the three hold anything. The output's staging buffer is idle during the first pass and holds out(t)
  after each point t of the second.
-/
import proofs.«124123_g37426345017912_cont_8to1_b_1199_19_alg».proof.Proof.Ideal.Pieces
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number n. -/
def pt (n : ℕ) (h : n < 50) : Fin cfg0.N := ⟨n, lt_of_lt_of_eq h N_0.symm⟩

@[simp] theorem pt_val (n : ℕ) (h : n < 50) : (pt n h).val = n := rfl

theorem eq_pt (t : Fin cfg0.N) (h : t.val < 50) : t = pt t.val h := Fin.ext rfl

/-! ## The contents -/

/-- x·W1ᵀ. -/
def sXW (c : Dev nD) : Vec F S10000x128 .bf16 :=
  k0_pay1 (iblk m c 1 (pt 0 (by omega))) (iblk m c 2 (pt 0 (by omega)))

/-- Rows [400·n, 400·n + 400) of layer 1. -/
def blkH1 (c : Dev nD) (n : ℕ) (hn : n < 25) : Vec F S400x128 .bf16 :=
  k0_pay3 (iblk m c 0 (pt n (by omega))) (sXW m c) (iblk m c 3 (pt n (by omega)))

/-- The buffer d holds the first k row blocks of layer 1. -/
def RowsOK (c : Dev nD) (k : ℕ) (d : Vec F S10000x128 .bf16) : Prop :=
  ∀ (n : ℕ) (_ : n < k) (hn : n < 25) (y : S10000x128.Idx) (x : S400x128.Idx),
    (y (0 : Fin 2)).val = 400 * n + (x (0 : Fin 2)).val → (y (1 : Fin 2)).val = (x (1 : Fin 2)).val → d y = blkH1 m c n hn x

/-- Layer 1, whole: row r is row r mod 400 of block r / 400. -/
def sH1 (c : Dev nD) : Vec F S10000x128 .bf16 := fun y =>
  blkH1 m c ((y (0 : Fin 2)).val / 400) (by have h : (y (0 : Fin 2)).val < 10000 := (y (0 : Fin 2)).isLt; omega)
    (ValueIdx.ix2 (n0 := 400) (n1 := 128) ⟨(y (0 : Fin 2)).val % 400, Nat.mod_lt _ (by norm_num)⟩ ⟨(y (1 : Fin 2)).val, (y (1 : Fin 2)).isLt⟩)

/-- A buffer holding all 25 row blocks holds layer 1. -/
theorem eq_sH1_of_rows (c : Dev nD) (d : Vec F S10000x128 .bf16) (h : RowsOK m c 25 d) : d = sH1 m c := by
  funext y
  have hy : (y (0 : Fin 2)).val < 10000 := (y (0 : Fin 2)).isLt
  exact h ((y (0 : Fin 2)).val / 400) (by omega) (by omega) y _
    (by show (y (0 : Fin 2)).val = 400 * ((y (0 : Fin 2)).val / 400) + (y (0 : Fin 2)).val % 400; omega) rfl

theorem RowsOK.mono (c : Dev nD) {k k' : ℕ} (hk : k' ≤ k) {d : Vec F S10000x128 .bf16} (h : RowsOK m c k d) : RowsOK m c k' d :=
  fun n hn hn' y x h0 h1 => h n (by omega) hn' y x h0 h1

/-- (layer 1)·W2ᵀ. -/
def sG (c : Dev nD) : Vec F S10000x128 .bf16 := k0_pay4 (sH1 m c) (iblk m c 4 (pt 25 (by omega)))

/-- The block of the result stored at point t (of the second pass). -/
def outBlk (c : Dev nD) (t : Fin cfg0.N) : Vec F S1x400x128 .f32 := k0_pay5 (iblk m c 0 t) (sG m c) (iblk m c 5 t)

/-! ## Reading a store back -/

/-- One store through the whole buffer, last, leaves its value. -/
theorem read_whole_store {sig' : RefSig} {κ : Kind} {sp : Space} {S : Shape} {e : EltTy} {Val : EltTy → Type}
    (v : View sig' κ sp S e) (f : v.ty.Contents Val) {off : Fin S.rank → ℕ} (h0 : off = fun _ => 0)
    (inb : ∀ a, off a + S.size a ≤ S.size a) (w : (Rect.unit off S.size inb).shape.Idx → Val e) (L : List (View.Piece Val S e)) :
    v.read Val (v.writes Val f ((⟨Rect.unit off S.size inb, w⟩ : View.Piece Val S e) :: L)) = w := by
  subst h0
  funext y
  exact View.read_writes_cons_unit_of_mem v f inb w L y y rfl (fun a => (Nat.zero_add _).symm)

/-- Storing block t of layer 1 at rows [400·t, 400·t + 400) over a buffer that holds blocks 0 … t − 1 gives one that
    holds blocks 0 … t: the new rows read the stored value, the others what they held. -/
theorem rows_step (c : Dev nD) (t : Fin cfg0.N) (ht : t.val < 25) (hc2 : cond2 (grid0.coords t))
    (f : sc1.view.ty.Contents (Elt F)) (xw : Vec F S10000x128 .bf16) (hxw : xw = sXW m c)
    (hprev : RowsOK m c t.val (sc1.view.read (Elt F) f)) :
    RowsOK m c (t.val + 1) (sc1.view.read (Elt F) (sc1.view.writes (Elt F) f
      [⟨Rect.unit (s := S10000x128) (k0_off1 (grid0.coords t)) S400x128.size (k0_off1_inb (grid0.coords t) hc2),
        k0_pay3 (iblk m c 0 t) xw (iblk m c 3 t)⟩])) := by
  subst hxw
  intro n hn hn' y x hy0 hy1
  have hx : (x (0 : Fin 2)).val < 400 := (x (0 : Fin 2)).isLt
  by_cases hnt : n = t.val
  · subst hnt
    exact (View.read_writes_cons_rows_of_mem (d := ![10000, 128]) sc1.view f (off := k0_off1 (grid0.coords t))
      (size := S400x128.size) (o := 400 * t.val) (k0_off1_inb (grid0.coords t) hc2)
      (k0_pay3 (iblk m c 0 t) (sXW m c) (iblk m c 3 t)) [] y x (off1_eq t ht) hy0 hy1).trans rfl
  · exact (View.read_writes_cons_rows_of_not_mem (d := ![10000, 128]) sc1.view f (off := k0_off1 (grid0.coords t))
      (size := S400x128.size) (o := 400 * t.val) (W := 400) (k0_off1_inb (grid0.coords t) hc2)
      (k0_pay3 (iblk m c 0 t) (sXW m c) (iblk m c 3 t)) [] y (off1_eq t ht) rfl (Or.inl (by omega))).trans
      (hprev n (by omega) hn' y x hy0 hy1)

/-! ## The invariant -/

/-- The invariant before point n ≥ 1. -/
def PhiU (c : Dev nD) (n : ℕ) : sProp 𝕄 :=
  iprop(iprop((∃ d0, ⌜n ≤ 25 → d0 = sXW m c⌝ ∗ owns (c : Thread nD τ) sc0 fullShare d0)
      ∗ (∃ d1, ⌜n ≤ 25 → RowsOK m c n d1⌝ ∗ owns (c : Thread nD τ) sc1 fullShare d1)
      ∗ (∃ d2, ⌜26 ≤ n → d2 = sG m c⌝ ∗ owns (c : Thread nD τ) sc2 fullShare d2)) ∗ (∃ r, prngReg c r))

/-- The invariant before point n: what the launch hands the region before the first point, then `PhiU`. -/
def PhiS (c : Dev nD) : (n : ℕ) → n ≤ cfg0.N → sProp 𝕄
  | 0, _ => Pipeline.ΦA spec0 c
  | n + 1, _ => PhiU m c (n + 1)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = PhiU m c (n + 1) := rfl

theorem PhiS_pos (c : Dev nD) (n : ℕ) (h : n ≤ cfg0.N) (hz : n ≠ 0) : PhiS m c n h = PhiU m c n := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlk m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

end Cert.KernelIdeal.Body

end
-- ==== Proof.Ideal.Obligation.lean ====
/-
  The body obligation of the launch and the run of the whole program.

  At a point the body is handed the invariant and the seven staging buffers (each input at its block, the output's at
  whatever it held) and must hand back the next invariant and the buffers, the output's at its block of the result
  in the second pass. The four cases of the grid are taken one by one: each applies that case's run of the body and
  re-establishes the invariant from what the run stored — a whole-buffer store leaves its value, the row store
  extends the rows of layer 1 by one block. The launch theorem then runs the whole grid; the host lines before and
  after the launch only reshape.
-/
import proofs.«124123_g37426345017912_cont_8to1_b_1199_19_alg».proof.Proof.Ideal.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in each staging buffer -/

theorem leaves_in0 (c : Dev nD) (t : Fin cfg0.N) :
    (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt_in 0 (by decide) t], after_0]
theorem leaves_in1 (c : Dev nD) (t : Fin cfg0.N) :
    (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt_in 1 (by decide) t], after_1]
theorem leaves_in2 (c : Dev nD) (t : Fin cfg0.N) :
    (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt_in 2 (by decide) t], after_2]
theorem leaves_in3 (c : Dev nD) (t : Fin cfg0.N) :
    (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveAt_in 3 (by decide) t], after_3]
theorem leaves_in4 (c : Dev nD) (t : Fin cfg0.N) :
    (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [liveAt_in 4 (by decide) t], after_4]
theorem leaves_in5 (c : Dev nD) (t : Fin cfg0.N) :
    (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [liveAt_in 5 (by decide) t], after_5]
theorem leaves_6 (c : Dev nD) (t : Fin cfg0.N) (h : 25 ≤ t.val) :
    (dats m 0 c).leavesExact 6 t = owns (c : Thread nD τ) (ms6 t) fullShare (outBlk m c t) := by
  rw [show (dats m 0 c).leavesExact 6 t = owns (c : Thread nD τ) (ms6 t) fullShare ((dats m 0 c).after 6 t) from by
    unfold Dat.leavesExact; rw [liveAt6 t h], after_6]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_in5]
  rw [PhiS_castSucc m c t]
  have hN : t.val < 50 := lt_of_lt_of_eq t.isLt (show cfg0.N = 50 from N_0)
  by_cases h0 : t.val = 0
  · -- the first point
    have hgt : pt 0 (by decide) = t := Fin.ext h0.symm
    have h0' : t.val = 0 := h0
    have hc1 : cond1 (grid0.coords t) := (hcond1 t).mpr h0'
    have hc2 : cond2 (grid0.coords t) := (hcond2 t).mpr (by omega)
    have hc3 : ¬cond3 (grid0.coords t) := fun h => by have := (hcond3 t).mp h; omega
    have hc4 : ¬cond4 (grid0.coords t) := fun h => by have := (hcond4 t).mp h; omega
    rw [Dat.leavesExact_idle (dats m 0 c) 6 t (idleAt6 t (by omega)) (noFlush6 t (by omega))]
    rw [PhiS_zero m c _ _ h0', PhiA_eq]
    unfold PhiU
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) hc1 hc2 hc3 hc4 (iblk m c 0 t) (iblk m c 1 t) (iblk m c 2 t) (iblk m c 3 t) (iblk m c 4 t) (iblk m c 5 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%g0, HS0⟩, ⟨%g1, HS1⟩, ⟨%e2, HS2⟩⟩
    isplitl [HS0 HS1 HS2 Hg]
    · isplitr [Hg]
      · isplitl [HS0]
        · iexists (sXW m c); isplitr
          · ipureintro; intro _; rfl
          unfold owns; iexists _; isplitr
          swap; · iexact HS0
          ipureintro
          rw [piecesA0, read_whole_store _ _ hz2]
          subst hgt; rfl
        isplitl [HS1]
        · iexists _; isplitr
          swap
          · unfold owns; iexists _; isplitr
            swap; · iexact HS1
            ipureintro; rfl
          ipureintro; intro _
          rw [piecesA1]
          have hr := rows_step m c t (by omega) hc2 g1 (k0_pay1 (iblk m c 1 t) (iblk m c 2 t)) (by subst hgt; rfl)
            (fun n hn => by omega)
          exact hr
        · iexists e2; isplitr
          · ipureintro; intro h; omega
          iexact HS2
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h2 : t.val < 25
    · -- a later point of the first pass
      have hc1 : ¬cond1 (grid0.coords t) := fun h => h0 ((hcond1 t).mp h)
      have hc2 : cond2 (grid0.coords t) := (hcond2 t).mpr h2
      have hc3 : ¬cond3 (grid0.coords t) := fun h => by have := (hcond3 t).mp h; omega
      have hc4 : ¬cond4 (grid0.coords t) := fun h => by have := (hcond4 t).mp h; omega
      rw [Dat.leavesExact_idle (dats m 0 c) 6 t (idleAt6 t h2) (noFlush6 t h2)]
      rw [PhiS_pos m c _ _ h0]
      unfold PhiU
      iintro ⟨⟨⟨⟨%e0, %he0, HS0⟩, ⟨%e1, %he1, HS1⟩, ⟨%e2, -, HS2⟩⟩, Hg⟩, Ho, ⟨%d0, H0⟩, ⟨%d1, H1⟩, ⟨%d2, H2⟩, ⟨%d3, H3⟩, ⟨%d4, H4⟩, ⟨%d5, H5⟩, ⟨%d6, H6⟩⟩
      obtain rfl := he0 (by omega)
      iapply ((runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) hc1 hc2 hc3 hc4 (iblk m c 0 t) (iblk m c 1 t) (iblk m c 2 t) (iblk m c 3 t) (iblk m c 4 t) (iblk m c 5 t) (sXW m c) e1).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexists _; iexact HS2
      iintro ⟨H0, H1, H2, H3, H4, H5, H6, HS0, HS1, ⟨%g2, HS2⟩⟩
      isplitl [HS0 HS1 HS2 Hg]
      · isplitr [Hg]
        · isplitl [HS0]
          · iexists (sXW m c); isplitr
            · ipureintro; intro _; rfl
            iexact HS0
          isplitl [HS1]
          · iexists _; isplitr
            swap
            · unfold owns; iexists _; isplitr
              swap; · iexact HS1
              ipureintro; rfl
            ipureintro; intro _
            rw [piecesB]
            exact rows_step m c t h2 hc2 _ (sXW m c) rfl (by rw [Memref.IsWhole.read_unread]; exact he1 (by omega))
          · iexists g2; isplitr
            · ipureintro; intro h; omega
            iexact HS2
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · by_cases h3 : t.val = 25
      · -- the first point of the second pass
        have hgt : pt 25 (by decide) = t := Fin.ext h3.symm
        have h3' : t.val = 25 := h3
        have hc1 : ¬cond1 (grid0.coords t) := fun h => by have := (hcond1 t).mp h; omega
        have hc2 : ¬cond2 (grid0.coords t) := fun h => by have := (hcond2 t).mp h; omega
        have hc3 : cond3 (grid0.coords t) := (hcond3 t).mpr h3'
        have hc4 : cond4 (grid0.coords t) := (hcond4 t).mpr (by omega)
        rw [leaves_6 m c t (by omega)]
        rw [PhiS_pos m c _ _ (by omega)]
        unfold PhiU
        iintro ⟨⟨⟨⟨%e0, -, HS0⟩, ⟨%e1, %he1, HS1⟩, ⟨%e2, -, HS2⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := eq_sH1_of_rows m c e1 (by have := he1 (by omega); rw [h3'] at this; exact this)
        iapply ((runC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) hc1 hc2 hc3 hc4 (iblk m c 0 t) (iblk m c 1 t) (iblk m c 2 t) (iblk m c 3 t) (iblk m c 4 t) (iblk m c 5 t) (sH1 m c)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexact HS1
        isplitl [HS2]; · iexists _; iexact HS2
        iintro ⟨H0, H1, H2, H3, H4, H5, ⟨%g6, H6⟩, ⟨%g0, HS0⟩, HS1, ⟨%g2, HS2⟩⟩
        isplitl [HS0 HS1 HS2 Hg]
        · isplitr [Hg]
          · isplitl [HS0]
            · iexists g0; isplitr
              · ipureintro; intro h; omega
              iexact HS0
            isplitl [HS1]
            · iexists (sH1 m c); isplitr
              · ipureintro; intro h; omega
              iexact HS1
            · iexists (sG m c); isplitr
              · ipureintro; intro _; rfl
              unfold owns; iexists _; isplitr
              swap; · iexact HS2
              ipureintro
              rw [piecesC2, read_whole_store _ _ hz2]
              subst hgt; rfl
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro
        rw [piecesC6, read_whole_store _ _ hz3]
        subst hgt; rfl
      · -- a later point of the second pass
        have hc1 : ¬cond1 (grid0.coords t) := fun h => h0 ((hcond1 t).mp h)
        have hc2 : ¬cond2 (grid0.coords t) := fun h => h2 ((hcond2 t).mp h)
        have hc3 : ¬cond3 (grid0.coords t) := fun h => h3 ((hcond3 t).mp h)
        have hc4 : cond4 (grid0.coords t) := (hcond4 t).mpr (by omega)
        rw [leaves_6 m c t (by omega)]
        rw [PhiS_pos m c _ _ h0]
        unfold PhiU
        iintro ⟨⟨⟨⟨%e0, -, HS0⟩, ⟨%e1, -, HS1⟩, ⟨%e2, %he2, HS2⟩⟩, Hg⟩, Ho, ⟨%d0, H0⟩, ⟨%d1, H1⟩, ⟨%d2, H2⟩, ⟨%d3, H3⟩, ⟨%d4, H4⟩, ⟨%d5, H5⟩, ⟨%d6, H6⟩⟩
        obtain rfl := he2 (by omega)
        iapply ((runD c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) hc1 hc2 hc3 hc4 (iblk m c 0 t) (iblk m c 1 t) (iblk m c 2 t) (iblk m c 3 t) (iblk m c 4 t) (iblk m c 5 t) (sG m c)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexists _; iexact HS0
        isplitl [HS1]; · iexists _; iexact HS1
        isplitl [HS2]; · iexact HS2
        iintro ⟨H0, H1, H2, H3, H4, H5, ⟨%g6, H6⟩, ⟨%g0, HS0⟩, ⟨%g1, HS1⟩, HS2⟩
        isplitl [HS0 HS1 HS2 Hg]
        · isplitr [Hg]
          · isplitl [HS0]
            · iexists g0; isplitr
              · ipureintro; intro h; omega
              iexact HS0
            isplitl [HS1]
            · iexists g1; isplitr
              · ipureintro; intro h; omega
              iexact HS1
            · iexists (sG m c); isplitr
              · ipureintro; intro _; rfl
              iexact HS2
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro
        rw [piecesD, read_whole_store _ _ hz3]
        rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  unfold PhiU
  iintro ⟨⟨⟨%e0, -, HS0⟩, ⟨%e1, -, HS1⟩, ⟨%e2, -, HS2⟩⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of the whole program terminates without a fault, every array of the launch ends at
    what the proof data says, every other buffer as the reshape after the launch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Ideal.Blocks.lean ====
/-
  Each window's block at a grid point, read as entries of the program's argument arrays.

  Before the launch the program only reshapes: the adjacency (10000 × 10000) is viewed as 25 row groups of 400 rows
  (25 × 400 × 10000, row-major, so entry (g, r, k) is entry (400·g + r, k)), and each bias (128) as one row (1 × 128).
  The adjacency's window walks the row groups, group t mod 25 at point t; every other input window is its whole array
  at every point; the output's window is at row group t − 25 during the second pass, where it is written back.
-/
import proofs.«124123_g37426345017912_cont_8to1_b_1199_19_alg».proof.Proof.Ideal.Data
import Idealize.ShloMosaic.Lib.Pipeline.Value
import Idealize.ShloMosaic.Lib.ValueLayout
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (m : (ℓ : Loc nD τ sig) → Buf (Elt F) ℓ)

/-! ## The arrays the launch finds -/

theorem V_main_v0 (c : Dev nD) : (V m c main_v0 : S25x400x10000.Idx → Elt F .f32)
    = shapeCast S25x400x10000 (m ((c : Thread nD τ).loc main_arg1)) shapeCasts_S10000x10000_S25x400x10000 := by
  show StableHlo.after hostOps0 (fun b => m (c, b)) (Proc.devRef .tc main_v0) = _
  after_results
  rfl

theorem V_main_v1 (c : Dev nD) : (V m c main_v1 : S1x128.Idx → Elt F .f32)
    = shapeCast S1x128 (m ((c : Thread nD τ).loc main_arg3)) shapeCasts_S128_S1x128 := by
  show StableHlo.after hostOps0 (fun b => m (c, b)) (Proc.devRef .tc main_v1) = _
  after_results
  rfl

theorem V_main_v2 (c : Dev nD) : (V m c main_v2 : S1x128.Idx → Elt F .f32)
    = shapeCast S1x128 (m ((c : Thread nD τ).loc main_arg5)) shapeCasts_S128_S1x128 := by
  show StableHlo.after hostOps0 (fun b => m (c, b)) (Proc.devRef .tc main_v2) = _
  after_results
  rfl

/-! ## The index maps, decided over the grid -/

theorem idx_facts : ∀ t : Fin cfg0.N,
    win0_0.index t (0 : Fin 3) = t.val % 25 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx6_facts : ∀ t : Fin cfg0.N, 25 ≤ t.val →
    win0_6.index t (0 : Fin 3) = t.val - 25 ∧ win0_6.index t (1 : Fin 3) = 0 ∧ win0_6.index t (2 : Fin 3) = 0 :=
  (by decide +kernel : ∀ t : Fin grid0.N, _)

/-- The output's block is written back exactly at the points of the second pass. -/
theorem flush6 : ∀ t : Fin cfg0.N, (cfg0.win 6).flush t = true ↔ 25 ≤ t.val :=
  (by decide +kernel : ∀ t : Fin grid0.N, _)

/-! ## The blocks -/

theorem iblk1_eq (c : Dev nD) (t : Fin cfg0.N) : iblk m c 1 t = m ((c : Thread nD τ).loc main_arg0) := by
  funext y
  show V m c main_arg0 (((cfg0.win 1).blk t).view.emb y) = _
  rw [V_main_arg0]
  congr 1
  have e0 := (idx_facts t).2.2.2.1
  have e1 := (idx_facts t).2.2.2.2.1
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

theorem iblk2_eq (c : Dev nD) (t : Fin cfg0.N) : iblk m c 2 t = m ((c : Thread nD τ).loc main_arg2) := by
  funext y
  show V m c main_arg2 (((cfg0.win 2).blk t).view.emb y) = _
  rw [V_main_arg2]
  congr 1
  have e0 := (idx_facts t).2.2.2.2.2.1
  have e1 := (idx_facts t).2.2.2.2.2.2.1
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem iblk4_eq (c : Dev nD) (t : Fin cfg0.N) : iblk m c 4 t = m ((c : Thread nD τ).loc main_arg4) := by
  funext y
  show V m c main_arg4 (((cfg0.win 4).blk t).view.emb y) = _
  rw [V_main_arg4]
  congr 1
  have e0 := (idx_facts t).2.2.2.2.2.2.2.2.2.1
  have e1 := (idx_facts t).2.2.2.2.2.2.2.2.2.2.1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem iblk3_apply (c : Dev nD) (t : Fin cfg0.N) (j : Fin 128) :
    iblk m c 3 t (ix2 0 j) = m ((c : Thread nD τ).loc main_arg3) (ix1 j) := by
  show V m c main_v1 (((cfg0.win 3).blk t).view.emb (ix2 0 j)) = _
  rw [V_main_v1]
  have e0 := (idx_facts t).2.2.2.2.2.2.2.1
  have e1 := (idx_facts t).2.2.2.2.2.2.2.2.1
  refine shapeCast_apply _ _ _ (ix1 j) ?_
  show ((⟨1, ![128]⟩ : Shape).rowMajor (ix1 j)).val = ((⟨2, ![1, 128]⟩ : Shape).rowMajor (((cfg0.win 3).blk t).view.emb (ix2 0 j))).val
  rw [Shape.rowMajor_val_two, Shape.rowMajor_val_one]
  show j.val = (win0_3.index t (0 : Fin 2) * 1 + 1 * 0) * 128 + (win0_3.index t (1 : Fin 2) * 128 + 1 * j.val)
  rw [e0, e1]; omega

theorem iblk5_apply (c : Dev nD) (t : Fin cfg0.N) (j : Fin 128) :
    iblk m c 5 t (ix2 0 j) = m ((c : Thread nD τ).loc main_arg5) (ix1 j) := by
  show V m c main_v2 (((cfg0.win 5).blk t).view.emb (ix2 0 j)) = _
  rw [V_main_v2]
  have e0 := (idx_facts t).2.2.2.2.2.2.2.2.2.2.2.1
  have e1 := (idx_facts t).2.2.2.2.2.2.2.2.2.2.2.2
  refine shapeCast_apply _ _ _ (ix1 j) ?_
  show ((⟨1, ![128]⟩ : Shape).rowMajor (ix1 j)).val = ((⟨2, ![1, 128]⟩ : Shape).rowMajor (((cfg0.win 5).blk t).view.emb (ix2 0 j))).val
  rw [Shape.rowMajor_val_two, Shape.rowMajor_val_one]
  show j.val = (win0_5.index t (0 : Fin 2) * 1 + 1 * 0) * 128 + (win0_5.index t (1 : Fin 2) * 128 + 1 * j.val)
  rw [e0, e1]; omega

/-- Row r of the adjacency's block at point t is row 400·(t mod 25) + r of the adjacency. -/
theorem iblk0_apply (c : Dev nD) (t : Fin cfg0.N) (r : Fin 400) (k : Fin 10000) (R : Fin 10000) (hR : R.val = 400 * (t.val % 25) + r.val) :
    iblk m c 0 t (ix3 0 r k) = m ((c : Thread nD τ).loc main_arg1) (ix2 R k) := by
  show V m c main_v0 (((cfg0.win 0).blk t).view.emb (ix3 0 r k)) = _
  rw [V_main_v0]
  have e0 := (idx_facts t).1
  have e1 := (idx_facts t).2.1
  have e2 := (idx_facts t).2.2.1
  refine shapeCast_apply _ _ _ (ix2 R k) ?_
  show ((⟨2, ![10000, 10000]⟩ : Shape).rowMajor (ix2 R k)).val = ((⟨3, ![25, 400, 10000]⟩ : Shape).rowMajor (((cfg0.win 0).blk t).view.emb (ix3 0 r k))).val
  rw [Shape.rowMajor_val_three, Shape.rowMajor_val_two]
  show R.val * 10000 + k.val = ((win0_0.index t (0 : Fin 3) * 1 + 1 * 0) * 400 + (win0_0.index t (1 : Fin 3) * 400 + 1 * r.val)) * 10000 + (win0_0.index t (2 : Fin 3) * 10000 + 1 * k.val)
  rw [e0, e1, e2, hR]; omega

end Cert.KernelIdeal.Body

end
-- ==== Proof.Payloads.lean ====
/-
  The four values the kernel's body stores, each read at one entry, over the extended reals.

  The body computes one graph-convolution layer in two steps, twice. The dense map  X ↦ X · Wᵀ  is a product that
  contracts the second axis of both factors: entry (n, j) is  Σ_e X(n, e) · W(j, e). The aggregation over neighbours
  multiplies a block of 400 rows of the adjacency, carried with a leading unit axis, by the dense map's result,
  contracting the block's columns against the result's rows, then adds the bias row to every row and clamps at zero:
  entry (r, j) is  max(Σ_k A(0, r, k) · M(k, j) + b(0, j), 0).
  Over the extended reals every format change is the identity, a product accumulated into the zero array is the plain
  finite sum over the contracted axis, a cast between shapes that only drops or adds a leading unit axis renames
  coordinates, and a row broadcast over many rows reads that row; so each stored value is the closed form above. Each
  of the two products is read once at an entry (one statement per contraction pattern) and the four values follow.
-/
import proofs.«124123_g37426345017912_cont_8to1_b_1199_19_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Cert.KernelIdeal Cert.KernelIdeal.Gen Idealize.ShloMosaic Idealize.ShloMosaic.ValueIdx

variable [Cert.KernelIdeal.Facts]

/-! ## Rows times rows: contracting the second axis of both factors -/

/-- The left factor is read in the output's row … -/
theorem rowsRows_lhs_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl
/-- … at the summation position; -/
theorem rowsRows_lhs_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
/-- the right factor is read in the row the output's column names … -/
theorem rowsRows_rhs_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl
/-- … at the summation position. -/
theorem rowsRows_rhs_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The product into the zero accumulator, read at entry (n, j), is  Σ_e l(n, e) · r(j, e). -/
theorem mulRowsRows_apply (l : FVec Ideal S10000x128 .bf16) (r : FVec Ideal S128x128 .bf16) (n : Fin 10000) (j : Fin 128) :
    FloatOps.matmul dot_S10000x128_S128x128_S10000x128_1_1_0_0_n_n none l r (constant (F := Ideal) S10000x128 .f32 0x00000000#32) (ix2 n j)
      = ∑ e : Fin 128, l (ix2 n e) * r (ix2 j e) := by
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 n j) ((contrEquiv1 dot_S10000x128_S128x128_S10000x128_1_1_0_0_n_n 128 rfl rfl).symm k) = ix2 n k := funext fun a => Fin.ext (by
    match a with
    | ⟨0, _⟩ => exact rowsRows_lhs_0 _ _
    | ⟨1, _⟩ => exact (rowsRows_lhs_1 _ _).trans hk)
  have er : dot_S10000x128_S128x128_S10000x128_1_1_0_0_n_n.rhsIdx (ix2 n j) ((contrEquiv1 dot_S10000x128_S128x128_S10000x128_1_1_0_0_n_n 128 rfl rfl).symm k) = ix2 j k := funext fun a => Fin.ext (by
    match a with
    | ⟨0, _⟩ => exact rowsRows_rhs_0 _ _
    | ⟨1, _⟩ => exact (rowsRows_rhs_1 _ _).trans hk)
  rw [el, er]

/-! ## Rows times columns: contracting the second axis of the left factor with the first axis of the right one -/

/-- The left factor is read in the output's row … -/
theorem rowsCols_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
/-- … at the summation position; -/
theorem rowsCols_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- the right factor is read in the row the summation position names … -/
theorem rowsCols_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- … in the output's column. -/
theorem rowsCols_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product into the zero accumulator, read at entry (r, j), is  Σ_k l(r, k) · m(k, j). -/
theorem mulRowsCols_apply (l : FVec Ideal S400x10000 .bf16) (m : FVec Ideal S10000x128 .bf16) (r : Fin 400) (j : Fin 128) :
    FloatOps.matmul dot_S400x10000_S10000x128_S400x128_1_0_0_1_n_n none l m (constant (F := Ideal) S400x128 .f32 0x00000000#32) (ix2 r j)
      = ∑ k : Fin 10000, l (ix2 r k) * m (ix2 k j) := by
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r j) ((contrEquiv1 dot_S400x10000_S10000x128_S400x128_1_0_0_1_n_n 10000 rfl rfl).symm k) = ix2 r k := funext fun a => Fin.ext (by
    match a with
    | ⟨0, _⟩ => exact rowsCols_lhs_0 _ _
    | ⟨1, _⟩ => exact (rowsCols_lhs_1 _ _).trans hk)
  have er : dot_S400x10000_S10000x128_S400x128_1_0_0_1_n_n.rhsIdx (ix2 r j) ((contrEquiv1 dot_S400x10000_S10000x128_S400x128_1_0_0_1_n_n 10000 rfl rfl).symm k) = ix2 k j := funext fun a => Fin.ext (by
    match a with
    | ⟨0, _⟩ => exact (rowsCols_rhs_0 _ _).trans hk
    | ⟨1, _⟩ => exact rowsCols_rhs_1 _ _)
  rw [el, er]

/-! ## The four stored values -/

/-- The adjacency block with its leading unit axis dropped, read at (r, k). -/
theorem pay2_apply (a : Vec Ideal S1x400x10000 .f32) (r : Fin 400) (k : Fin 10000) :
    k0_pay2 (F := Ideal) a (ix2 r k) = a (ix3 0 r k) := by
  unfold k0_pay2
  exact shapeCast_1ab_ab_apply a shapeCasts_S1x400x10000_S400x10000 r k

/-- One layer's aggregation of a block of rows, before it is stored:  max(Σ_k A(r, k) · M(k, j) + b(j), 0), where M
    is the dense map's result. -/
theorem aggregate_apply (a : Vec Ideal S1x400x10000 .f32) (m : FVec Ideal S10000x128 .bf16) (b : FVec Ideal S1x128 .f32)
    (r : Fin 400) (j : Fin 128) :
    max (FloatOps.matmul dot_S400x10000_S10000x128_S400x128_1_0_0_1_n_n none (k0_pay2 (F := Ideal) a) m (constant (F := Ideal) S400x128 .f32 0x00000000#32) (ix2 r j)
        + broadcastTo S400x128 b broadcasts_S1x128_S400x128 (ix2 r j)) (Ideal.ofBits .f32 0x00000000#32)
      = max ((∑ k : Fin 10000, a (ix3 0 r k) * m (ix2 k j)) + b (ix2 0 j)) 0 := by
  rw [mulRowsCols_apply, broadcastTo_1b_ab_apply, Ideal.ofBits_zero_f32]
  simp only [pay2_apply]

/-- First layer, the dense map:  (X · W1ᵀ)(n, j) = Σ_e X(n, e) · W1(j, e). -/
theorem pay1_apply (x : Vec Ideal S10000x128 .f32) (w : Vec Ideal S128x128 .f32) (n : Fin 10000) (j : Fin 128) :
    k0_pay1 (F := Ideal) x w (ix2 n j) = ∑ e : Fin 128, x (ix2 n e) * w (ix2 j e) := by
  unfold k0_pay1
  simp only [shapeCast_self]
  exact mulRowsRows_apply _ _ n j

/-- First layer, the aggregation of one block of rows:  max(Σ_k A(r, k) · XW(k, j) + b1(j), 0). -/
theorem pay3_apply (a : Vec Ideal S1x400x10000 .f32) (xw : Vec Ideal S10000x128 .bf16) (b : Vec Ideal S1x128 .f32)
    (r : Fin 400) (j : Fin 128) :
    k0_pay3 (F := Ideal) a xw b (ix2 r j) = max ((∑ k : Fin 10000, a (ix3 0 r k) * xw (ix2 k j)) + b (ix2 0 j)) 0 := by
  unfold k0_pay3
  simp only [shapeCast_self]
  exact aggregate_apply a xw b r j

/-- Second layer, the dense map:  (H · W2ᵀ)(n, o) = Σ_e H(n, e) · W2(o, e). -/
theorem pay4_apply (h : Vec Ideal S10000x128 .bf16) (w : Vec Ideal S128x128 .f32) (n : Fin 10000) (o : Fin 128) :
    k0_pay4 (F := Ideal) h w (ix2 n o) = ∑ e : Fin 128, h (ix2 n e) * w (ix2 o e) := by
  unfold k0_pay4
  simp only [shapeCast_self]
  exact mulRowsRows_apply _ _ n o

/-- Second layer, the aggregation of one block of rows, stored with a leading unit axis:
    max(Σ_k A(r, k) · G(k, o) + b2(o), 0). -/
theorem pay5_apply (a : Vec Ideal S1x400x10000 .f32) (g : Vec Ideal S10000x128 .bf16) (b : Vec Ideal S1x128 .f32)
    (r : Fin 400) (o : Fin 128) :
    k0_pay5 (F := Ideal) a g b (ix3 0 r o) = max ((∑ k : Fin 10000, a (ix3 0 r k) * g (ix2 k o)) + b (ix2 0 o)) 0 := by
  unfold k0_pay5
  simp only [shapeCast_self]
  refine (shapeCast_ab_1ab_apply _ shapeCasts_S400x128_S1x400x128 0 r o).trans ?_
  exact aggregate_apply a g b r o

end Cert.KernelIdeal.PayValue

end
-- ==== Proof.GcnSpec.lean ====
/-
  The two-layer graph convolution as a function of its six argument arrays, over the extended reals.

  One layer maps a feature matrix X (n × d) to  max(A · X · Wᵀ + b, 0)  (n × h), with A the n × n adjacency,
  W an h × d weight matrix and b a bias row. The product A · X · Wᵀ can be bracketed two ways:
    * `layerK`: A · (X · Wᵀ) — the dense linear map first, then the aggregation over neighbours;
    * `layerR`: (A · X) · Wᵀ — the aggregation first, then the dense linear map.
  Entry (r, j) of the first is  Σ_k A r k · (Σ_e X k e · W j e),  of the second  Σ_e (Σ_k A r k · X k e) · W j e.
  On real entries the two agree (distributivity and exchanging the two finite sums); on the extended reals they
  need not, which is why the equality is stated for finite inputs only (see the law's module).
  The network is two such layers with the same adjacency; `outK` / `outR` read it on arrays indexed by
  coordinate vectors.
-/
import Idealize.ShloMosaic.PureOps.Ideal
import Idealize.ShloMosaic.Lib.ValueIdx

noncomputable section

namespace Cert.Gcn

open Idealize.ShloMosaic Idealize.ShloMosaic.ValueIdx

/-- One layer, dense map first:  max(Σ_k A r k · (Σ_e X k e · W j e) + b j, 0). -/
def layerK {n d h : Nat} (A : Fin n → Fin n → EReal) (X : Fin n → Fin d → EReal) (W : Fin h → Fin d → EReal)
    (b : Fin h → EReal) : Fin n → Fin h → EReal :=
  fun r j => max ((∑ k : Fin n, A r k * ∑ e : Fin d, X k e * W j e) + b j) 0

/-- One layer, aggregation first:  max(Σ_e (Σ_k A r k · X k e) · W j e + b j, 0). -/
def layerR {n d h : Nat} (A : Fin n → Fin n → EReal) (X : Fin n → Fin d → EReal) (W : Fin h → Fin d → EReal)
    (b : Fin h → EReal) : Fin n → Fin h → EReal :=
  fun r j => max ((∑ e : Fin d, (∑ k : Fin n, A r k * X k e) * W j e) + b j) 0

/-- Two layers over one adjacency, each with the dense map first. -/
def gcnK {n d h o : Nat} (A : Fin n → Fin n → EReal) (X : Fin n → Fin d → EReal) (W1 : Fin h → Fin d → EReal)
    (b1 : Fin h → EReal) (W2 : Fin o → Fin h → EReal) (b2 : Fin o → EReal) : Fin n → Fin o → EReal :=
  layerK A (layerK A X W1 b1) W2 b2

/-- Two layers over one adjacency, each with the aggregation first. -/
def gcnR {n d h o : Nat} (A : Fin n → Fin n → EReal) (X : Fin n → Fin d → EReal) (W1 : Fin h → Fin d → EReal)
    (b1 : Fin h → EReal) (W2 : Fin o → Fin h → EReal) (b2 : Fin o → EReal) : Fin n → Fin o → EReal :=
  layerR A (layerR A X W1 b1) W2 b2

/-- The literal shapes of the six arguments and of the result. -/
abbrev SX : Shape := ⟨2, ![10000, 128]⟩
abbrev SA : Shape := ⟨2, ![10000, 10000]⟩
abbrev SW : Shape := ⟨2, ![128, 128]⟩
abbrev SB : Shape := ⟨1, ![128]⟩

/-- The network on arrays, dense map first: entry i = (r, j) of the result. Argument order: x, adj, W1, b1, W2, b2. -/
def outK (x : SX.Idx → EReal) (adj : SA.Idx → EReal) (w1 : SW.Idx → EReal) (b1 : SB.Idx → EReal)
    (w2 : SW.Idx → EReal) (b2 : SB.Idx → EReal) : SX.Idx → EReal :=
  fun i => gcnK (n := 10000) (d := 128) (h := 128) (o := 128) (fun r k => adj (ix2 r k)) (fun k e => x (ix2 k e))
    (fun j e => w1 (ix2 j e)) (fun j => b1 (ix1 j)) (fun j e => w2 (ix2 j e)) (fun j => b2 (ix1 j)) (i 0) (i 1)

/-- The network on arrays, aggregation first. -/
def outR (x : SX.Idx → EReal) (adj : SA.Idx → EReal) (w1 : SW.Idx → EReal) (b1 : SB.Idx → EReal)
    (w2 : SW.Idx → EReal) (b2 : SB.Idx → EReal) : SX.Idx → EReal :=
  fun i => gcnR (n := 10000) (d := 128) (h := 128) (o := 128) (fun r k => adj (ix2 r k)) (fun k e => x (ix2 k e))
    (fun j e => w1 (ix2 j e)) (fun j => b1 (ix1 j)) (fun j e => w2 (ix2 j e)) (fun j => b2 (ix1 j)) (i 0) (i 1)

end Cert.Gcn

end
-- ==== Proof.Ideal.Result.lean ====
/-
  The idealized kernel's result, at the extended reals, is the two-layer graph convolution with the dense map first.

  Entry by entry, with A, X, W1, b1, W2, b2 the argument arrays:
    * the first scratch holds  x·W1ᵀ :            (n, j) ↦ Σ_e X n e · W1 j e;
    * block n of layer 1, at (r, j), is           max(Σ_k A (400·n + r) k · (x·W1ᵀ) k j + b1 j, 0),
      so the second scratch, once whole, holds layer 1;
    * the third scratch holds  (layer 1)·W2ᵀ :    (n, o) ↦ Σ_e (layer 1) n e · W2 o e;
    * the block stored at point t of the second pass, at (r, o), is
                                                  max(Σ_k A (400·(t − 25) + r) k · ((layer 1)·W2ᵀ) k o + b2 o, 0),
      which is entry (400·(t − 25) + r, o) of the network's result.
  The 25 blocks of the second pass tile the output's array (25 × 400 × 128), so after the launch the array holds the
  result at row 400·g + r for its entry (g, r, o); the reshape after the launch reads that as entry (400·g + r, o).
-/
import proofs.«124123_g37426345017912_cont_8to1_b_1199_19_alg».proof.Proof.Ideal.Obligation
import proofs.«124123_g37426345017912_cont_8to1_b_1199_19_alg».proof.Proof.Ideal.Blocks
import proofs.«124123_g37426345017912_cont_8to1_b_1199_19_alg».proof.Proof.Payloads
import proofs.«124123_g37426345017912_cont_8to1_b_1199_19_alg».proof.Proof.GcnSpec

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Body Cert.KernelIdeal.PayValue Cert.Gcn Idealize.ShloMosaic.ValueIdx

variable (m : (ℓ : Loc nD τ sig) → Buf (Elt Ideal) ℓ) (ρ : Dev nD → PrngReg) (c : Dev nD)

/-- The six argument arrays. -/
abbrev aX : SX.Idx → EReal := m ((c : Thread nD τ).loc main_arg0)
abbrev aA : SA.Idx → EReal := m ((c : Thread nD τ).loc main_arg1)
abbrev aW1 : SW.Idx → EReal := m ((c : Thread nD τ).loc main_arg2)
abbrev aB1 : SB.Idx → EReal := m ((c : Thread nD τ).loc main_arg3)
abbrev aW2 : SW.Idx → EReal := m ((c : Thread nD τ).loc main_arg4)
abbrev aB2 : SB.Idx → EReal := m ((c : Thread nD τ).loc main_arg5)

/-- Layer 1 of the specification on the argument arrays. -/
abbrev lay1 : Fin 10000 → Fin 128 → EReal :=
  layerK (n := 10000) (d := 128) (h := 128) (fun r k => aA m c (ix2 r k)) (fun k e => aX m c (ix2 k e)) (fun j e => aW1 m c (ix2 j e)) (fun j => aB1 m c (ix1 j))

/-! ## The scratch buffers and the output blocks, entry by entry -/

theorem sXW_apply (n : Fin 10000) (j : Fin 128) :
    sXW m c (ix2 n j) = ∑ e : Fin 128, aX m c (ix2 n e) * aW1 m c (ix2 j e) := by
  unfold sXW
  rw [iblk1_eq, iblk2_eq]
  exact pay1_apply _ _ n j

theorem blkH1_apply (n : ℕ) (hn : n < 25) (r : Fin 400) (j : Fin 128) (R : Fin 10000) (hR : R.val = 400 * n + r.val) :
    blkH1 m c n hn (ix2 r j) = lay1 m c R j := by
  unfold blkH1
  rw [pay3_apply]
  show _ = max ((∑ k : Fin 10000, aA m c (ix2 R k) * ∑ e : Fin 128, aX m c (ix2 k e) * aW1 m c (ix2 j e)) + aB1 m c (ix1 j)) 0
  rw [iblk3_apply]
  congr 2
  refine Finset.sum_congr rfl fun k _ => ?_
  rw [iblk0_apply m c (pt n (by omega)) r k R (by rw [pt_val, Nat.mod_eq_of_lt hn]; exact hR), sXW_apply]

theorem sH1_apply (R : Fin 10000) (j : Fin 128) : sH1 m c (ix2 R j) = lay1 m c R j :=
  blkH1_apply m c (R.val / 400) (by have := R.isLt; omega) ⟨R.val % 400, Nat.mod_lt _ (by norm_num)⟩ j R
    (by show R.val = 400 * (R.val / 400) + R.val % 400; omega)

theorem sG_apply (n : Fin 10000) (o : Fin 128) :
    sG m c (ix2 n o) = ∑ e : Fin 128, lay1 m c n e * aW2 m c (ix2 o e) := by
  unfold sG
  rw [iblk4_eq, pay4_apply]
  exact Finset.sum_congr rfl fun e _ => by rw [sH1_apply]

theorem outBlk_apply (t : Fin cfg0.N) (ht : 25 ≤ t.val) (r : Fin 400) (o : Fin 128) (R : Fin 10000)
    (hR : R.val = 400 * (t.val - 25) + r.val) :
    outBlk m c t (ix3 0 r o) = outK (aX m c) (aA m c) (aW1 m c) (aB1 m c) (aW2 m c) (aB2 m c) (ix2 R o) := by
  have hN : t.val < 50 := lt_of_lt_of_eq t.isLt (show cfg0.N = 50 from N_0)
  unfold outBlk
  rw [pay5_apply]
  show _ = max ((∑ k : Fin 10000, aA m c (ix2 R k) * ∑ e : Fin 128, lay1 m c k e * aW2 m c (ix2 o e)) + aB2 m c (ix1 o)) 0
  rw [iblk5_apply]
  congr 2
  refine Finset.sum_congr rfl fun k _ => ?_
  rw [iblk0_apply m c t r k R (by rw [hR]; omega), sG_apply]

/-! ## From the blocks to the output's array -/

/-- The output's array (25 × 400 × 128) after the launch: entry (g, r, o) is entry (400·g + r, o) of the result. -/
def outArr : S25x400x128.Idx → EReal := fun y =>
  outK (aX m c) (aA m c) (aW1 m c) (aB1 m c) (aW2 m c) (aB2 m c)
    (ix2 (n0 := 10000) (n1 := 128) ⟨400 * (y (0 : Fin 3)).val + (y (1 : Fin 3)).val, by
      have h0 : (y (0 : Fin 3)).val < 25 := (y (0 : Fin 3)).isLt
      have h1 : (y (1 : Fin 3)).val < 400 := (y (1 : Fin 3)).isLt
      omega⟩ ⟨(y (2 : Fin 3)).val, (y (2 : Fin 3)).isLt⟩)

/-- What a point of the second pass writes back is its block of that array. -/
theorem flushed_eq (t : Fin cfg0.N) (ht : 25 ≤ t.val) :
    (dats m 0 c).flushed 6 t = ((cfg0.win 6).blk t).view.read (Elt Ideal) (outArr m c) := by
  show (cfg0.win 6).cut (grid0.coords t) ((dats m 0 c).after 6 t) = _
  rw [after_6]
  have hN : t.val < 50 := lt_of_lt_of_eq t.isLt (show cfg0.N = 50 from N_0)
  obtain ⟨e0, e1, e2⟩ := idx6_facts t ht
  funext y
  obtain ⟨u, r, o, rfl⟩ : ∃ (u : Fin 1) (r : Fin 400) (o : Fin 128), y = ix3 u r o := ⟨y 0, y 1, y 2, eq_ix3 y⟩
  obtain rfl : u = 0 := Subsingleton.elim _ _
  show outBlk m c t (ix3 0 r o) = outArr m c (((cfg0.win 6).blk t).view.emb (ix3 0 r o))
  rw [outBlk_apply m c t ht r o ⟨400 * (t.val - 25) + r.val, by have := r.isLt; omega⟩ rfl]
  unfold outArr
  congr 1
  funext a; apply Fin.ext
  match a with
  | ⟨0, _⟩ =>
    show 400 * (t.val - 25) + r.val = 400 * (win0_6.index t (0 : Fin 3) * 1 + 1 * 0) + (win0_6.index t (1 : Fin 3) * 400 + 1 * r.val)
    rw [e0, e1]; omega
  | ⟨1, _⟩ =>
    show o.val = win0_6.index t (2 : Fin 3) * 128 + 1 * o.val
    rw [e2]; omega

theorem mem_blk6 (t : Fin cfg0.N) (i : S25x400x128.Idx) :
    i ∈ ((cfg0.win 6).blk t).view.set ↔ ∀ a : Fin 3, win0_6.index t a * S1x400x128.size a ≤ (i a).val ∧ (i a).val < win0_6.index t a * S1x400x128.size a + S1x400x128.size a := by
  show i ∈ ((View.whole main_v3).slice (win0_6.rect t)).set ↔ _
  rw [View.set_slice_whole, Rect.mem_set_unit]
  exact Iff.rfl

/-- Every entry of the array is in the block of the point 25 + (its row group). -/
theorem cover6 (i : S25x400x128.Idx) : ∃ t : Fin cfg0.N, (cfg0.win 6).flush t = true ∧ i ∈ ((cfg0.win 6).blk t).view.set := by
  have h0 : (i (0 : Fin 3)).val < 25 := (i (0 : Fin 3)).isLt
  have h1 : (i (1 : Fin 3)).val < 400 := (i (1 : Fin 3)).isLt
  have h2 : (i (2 : Fin 3)).val < 128 := (i (2 : Fin 3)).isLt
  refine ⟨pt ((i (0 : Fin 3)).val + 25) (by omega), (flush6 _).mpr (by rw [pt_val]; omega), ?_⟩
  obtain ⟨e0, e1, e2⟩ := idx6_facts (pt ((i (0 : Fin 3)).val + 25) (by omega)) (by rw [pt_val]; omega)
  rw [pt_val] at e0
  rw [mem_blk6]
  intro a
  match a with
  | ⟨0, _⟩ => show win0_6.index _ (0 : Fin 3) * 1 ≤ (i 0).val ∧ (i 0).val < win0_6.index _ (0 : Fin 3) * 1 + 1; rw [e0]; omega
  | ⟨1, _⟩ => show win0_6.index _ (1 : Fin 3) * 400 ≤ (i 1).val ∧ (i 1).val < win0_6.index _ (1 : Fin 3) * 400 + 400; rw [e1]; omega
  | ⟨2, _⟩ => show win0_6.index _ (2 : Fin 3) * 128 ≤ (i 2).val ∧ (i 2).val < win0_6.index _ (2 : Fin 3) * 128 + 128; rw [e2]; omega

/-- The output's array after the launch. -/
theorem final6 : (dats m 0 c).arrAt 6 cfg0.N = outArr m c :=
  (dats m 0 c).arrAt_eq_of_cover 6 (outArr m c) (fun t hf => flushed_eq m c t ((flush6 t).mp hf)) (cover6)

/-! ## The reshape after the launch, and the run -/

/-- The program's result buffer after the reshape that follows the launch: the network's result. -/
theorem tail_eq : Pipeline.afterTail₀ cfgs (dats m) 0 (V0 m) [hostOps1] c main_v4
    = outK (aX m c) (aA m c) (aW1 m c) (aB1 m c) (aW2 m c) (aB2 m c) := by
  unfold Pipeline.afterTail₀
  show StableHlo.after hostOps1 _ (Proc.devRef .tc main_v4) = _
  after_results
  funext i
  obtain ⟨R, o, rfl⟩ : ∃ (R : Fin 10000) (o : Fin 128), i = ix2 R o := ⟨i 0, i 1, eq_ix2 i⟩
  show shapeCast S10000x128 (Pipeline.withArrays spec0 c (V0 m c) (fun w => (dats m 0 c).arrAt w cfg0.N) (Proc.devRef .tc (Pipeline.arrRef spec0 6))) shapeCasts_S25x400x128_S10000x128 (ix2 R o) = _
  rw [Pipeline.withArrays_arr spec0 launch0.win.arr_inj c _ _ 6, final6]
  have hR := R.isLt
  refine (shapeCast_apply _ _ _ (ix3 (n0 := 25) (n1 := 400) (n2 := 128) ⟨R.val / 400, by omega⟩ ⟨R.val % 400, Nat.mod_lt _ (by norm_num)⟩ o) ?_).trans ?_
  · show ((⟨3, ![25, 400, 128]⟩ : Shape).rowMajor _).val = ((⟨2, ![10000, 128]⟩ : Shape).rowMajor (ix2 R o)).val
    rw [Shape.rowMajor_val_three, Shape.rowMajor_val_two]
    show (R.val / 400 * 400 + R.val % 400) * 128 + o.val = R.val * 128 + o.val
    omega
  · unfold outArr
    congr 1
    funext a; apply Fin.ext
    match a with
    | ⟨0, _⟩ => show 400 * (R.val / 400) + R.val % 400 = R.val; omega
    | ⟨1, _⟩ => rfl

/-- Every weakly fair execution of the idealized kernel terminates without a fault, with its result buffer at the
    network's result (dense map first) of the argument arrays, and the argument arrays unchanged. -/
theorem run : θ_run defs (onTc (τ := τ) (main (F := Ideal))) ⟨m, fun _ => 0, ρ⟩ (fun r => ∀ c : Dev nD,
      r.2.mem ((c.tc : Thread nD τ).loc main_v4) = outK (aX m c) (aA m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v4 (Pipeline.mem_restRefs_of main_v4 (by decide) (by decide))).trans (tail_eq m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c))⟩)
    (run_main (F := Ideal) m ρ)

end Cert.KernelIdeal.Result

end
-- ==== Proof.RefValue.lean ====
/-
  The reference program's result, at the extended reals, is the two-layer graph convolution with the
  aggregation first.

  The program computes, for each layer,  max((A · H) · Wᵀ + b, 0):  a product of the adjacency with the feature
  matrix, a product of that with the transposed weight matrix, a bias row repeated down the rows, and a maximum
  with the zero matrix. Read at an entry (r, j):
    * the first product is      Σ_k A r k · H k e;
    * the transposed weight at (e, j) is  W j e,  so the second product is  Σ_e (Σ_k A r k · H k e) · W j e;
    * the repeated bias row at (r, j) is  b j;  the zero matrix at (r, j) is 0.
  That is one layer of the specification, entry by entry; the second layer reads the first one's result the
  same way, and the whole is the specification's two layers.
-/
import proofs.«124123_g37426345017912_cont_8to1_b_1199_19_alg».proof.Proof.Gen.ReferenceIdeal.Read
import proofs.«124123_g37426345017912_cont_8to1_b_1199_19_alg».proof.Proof.GcnSpec

noncomputable section

namespace Cert.ReferenceIdeal.RefValue

open Cert.ReferenceIdeal Cert.ReferenceIdeal.Read Cert.Gcn Idealize.ShloMosaic Idealize.ShloMosaic.ValueIdx
  Idealize.ShloMosaic.TcCoe Idealize.SL.Sem Idealize.ShloMosaic.StableHlo

/-! ## The index maps of the operations, by coordinates -/

/-- Row r of the adjacency, column k: the left factor of entry (r, e) of A · H at summand k. -/
theorem lidx_v0 (r : Fin 10000) (e : Fin 128) (k : Fin 10000) : lidx_main_v0 (ix2 r e) k = ix2 r k :=
  funext fun a => Fin.ext (by match a with | ⟨0, _⟩ => rfl | ⟨1, _⟩ => rfl)

/-- Row k of the features, column e: the right factor of entry (r, e) of A · H at summand k. -/
theorem ridx_v0 (r : Fin 10000) (e : Fin 128) (k : Fin 10000) : ridx_main_v0 (ix2 r e) k = ix2 k e :=
  funext fun a => Fin.ext (by match a with | ⟨0, _⟩ => rfl | ⟨1, _⟩ => rfl)

/-- The transpose reads entry (e, j) at (j, e). -/
theorem idx_v1 (e j : Fin 128) : idx_main_v1 (ix2 e j) = ix2 j e :=
  funext fun a => Fin.ext (by match a with | ⟨0, _⟩ => rfl | ⟨1, _⟩ => rfl)

theorem lidx_v2 (r : Fin 10000) (j : Fin 128) (e : Fin 128) : lidx_main_v2 (ix2 r j) e = ix2 r e :=
  funext fun a => Fin.ext (by match a with | ⟨0, _⟩ => rfl | ⟨1, _⟩ => rfl)

theorem ridx_v2 (r : Fin 10000) (j : Fin 128) (e : Fin 128) : ridx_main_v2 (ix2 r j) e = ix2 e j :=
  funext fun a => Fin.ext (by match a with | ⟨0, _⟩ => rfl | ⟨1, _⟩ => rfl)

/-- The bias as a one-row matrix: entry (0, j) is b j. -/
theorem idx_v3 (z : Fin 1) (j : Fin 128) : idx_main_v3 (ix2 z j) = ix1 j :=
  funext fun a => Fin.ext (by match a with | ⟨0, _⟩ => rfl)

/-- The one row repeated: entry (r, j) reads row 0, column j. -/
theorem idx_v4 (r : Fin 10000) (j : Fin 128) : idx_main_v4 (ix2 r j) = ix2 (⟨0, Nat.one_pos⟩ : Fin 1) j :=
  funext fun a => Fin.ext (by match a with | ⟨0, _⟩ => rfl | ⟨1, _⟩ => rfl)

theorem lidx_v8 (r : Fin 10000) (e : Fin 128) (k : Fin 10000) : lidx_main_v8 (ix2 r e) k = ix2 r k :=
  funext fun a => Fin.ext (by match a with | ⟨0, _⟩ => rfl | ⟨1, _⟩ => rfl)

theorem ridx_v8 (r : Fin 10000) (e : Fin 128) (k : Fin 10000) : ridx_main_v8 (ix2 r e) k = ix2 k e :=
  funext fun a => Fin.ext (by match a with | ⟨0, _⟩ => rfl | ⟨1, _⟩ => rfl)

theorem idx_v9 (e j : Fin 128) : idx_main_v9 (ix2 e j) = ix2 j e :=
  funext fun a => Fin.ext (by match a with | ⟨0, _⟩ => rfl | ⟨1, _⟩ => rfl)

theorem lidx_v10 (r : Fin 10000) (j : Fin 128) (e : Fin 128) : lidx_main_v10 (ix2 r j) e = ix2 r e :=
  funext fun a => Fin.ext (by match a with | ⟨0, _⟩ => rfl | ⟨1, _⟩ => rfl)

theorem ridx_v10 (r : Fin 10000) (j : Fin 128) (e : Fin 128) : ridx_main_v10 (ix2 r j) e = ix2 e j :=
  funext fun a => Fin.ext (by match a with | ⟨0, _⟩ => rfl | ⟨1, _⟩ => rfl)

theorem idx_v11 (z : Fin 1) (j : Fin 128) : idx_main_v11 (ix2 z j) = ix1 j :=
  funext fun a => Fin.ext (by match a with | ⟨0, _⟩ => rfl)

theorem idx_v12 (r : Fin 10000) (j : Fin 128) : idx_main_v12 (ix2 r j) = ix2 (⟨0, Nat.one_pos⟩ : Fin 1) j :=
  funext fun a => Fin.ext (by match a with | ⟨0, _⟩ => rfl | ⟨1, _⟩ => rfl)

/-! ## The first layer, entry by entry -/

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- Entry (r, e) of A · X is Σ_k A r k · X k e. -/
theorem v0_at (r : Fin 10000) (e : Fin 128) :
    val_main_v0 (F := Ideal) x0 x1 (ix2 r e) = ∑ k : Fin 10000, x1 (ix2 r k) * x0 (ix2 k e) := by
  rw [val_main_v0_apply]
  simp only [lidx_v0, ridx_v0]

/-- Entry (r, j) of (A · X) · W1ᵀ is Σ_e (Σ_k A r k · X k e) · W1 j e: the transpose turns the right factor's
    entry (e, j) into W1 j e. -/
theorem v2_at (r : Fin 10000) (j : Fin 128) :
    val_main_v2 (F := Ideal) x0 x1 x2 (ix2 r j)
      = ∑ e : Fin 128, (∑ k : Fin 10000, x1 (ix2 r k) * x0 (ix2 k e)) * x2 (ix2 j e) := by
  rw [val_main_v2_apply]
  simp only [lidx_v2, ridx_v2, v0_at, val_main_v1_apply, idx_v1]

/-- The bias row repeated down the rows: entry (r, j) is b1 j. -/
theorem v4_at (r : Fin 10000) (j : Fin 128) : val_main_v4 (F := Ideal) x3 (ix2 r j) = x3 (ix1 j) := by
  rw [val_main_v4_apply, idx_v4, val_main_v3_apply, idx_v3]

/-- The zero matrix: every entry is 0. -/
theorem v6_at (i : S10000x128.Idx) : val_main_v6 (F := Ideal) i = (0 : EReal) := by
  rw [val_main_v6_apply, val_main_cst_apply]
  exact Ideal.ofBits_zero_f32

/-- The first layer's result at (r, j) is the specification's layer, aggregation first. -/
theorem v7_at (r : Fin 10000) (j : Fin 128) :
    val_main_v7 (F := Ideal) x0 x1 x2 x3 (ix2 r j)
      = layerR (n := 10000) (d := 128) (h := 128) (fun r k => x1 (ix2 r k)) (fun k e => x0 (ix2 k e))
          (fun j e => x2 (ix2 j e)) (fun j => x3 (ix1 j)) r j := by
  rw [val_main_v7_apply, val_main_v5_apply, v2_at, v4_at, v6_at, Ideal.maximumf_def, Ideal.addf_def]
  rfl

/-! ## The second layer, entry by entry -/

/-- Entry (r, e) of A · H, with H the first layer's result. -/
theorem v8_at (r : Fin 10000) (e : Fin 128) :
    val_main_v8 (F := Ideal) x0 x1 x2 x3 (ix2 r e)
      = ∑ k : Fin 10000, x1 (ix2 r k)
          * layerR (n := 10000) (d := 128) (h := 128) (fun r k => x1 (ix2 r k)) (fun k e => x0 (ix2 k e))
              (fun j e => x2 (ix2 j e)) (fun j => x3 (ix1 j)) k e := by
  rw [val_main_v8_apply]
  simp only [lidx_v8, ridx_v8, v7_at]

/-- Entry (r, j) of (A · H) · W2ᵀ is Σ_e (Σ_k A r k · H k e) · W2 j e. -/
theorem v10_at (r : Fin 10000) (j : Fin 128) :
    val_main_v10 (F := Ideal) x0 x1 x2 x3 x4 (ix2 r j)
      = ∑ e : Fin 128, (∑ k : Fin 10000, x1 (ix2 r k)
          * layerR (n := 10000) (d := 128) (h := 128) (fun r k => x1 (ix2 r k)) (fun k e => x0 (ix2 k e))
              (fun j e => x2 (ix2 j e)) (fun j => x3 (ix1 j)) k e) * x4 (ix2 j e) := by
  rw [val_main_v10_apply]
  simp only [lidx_v10, ridx_v10, v8_at, val_main_v9_apply, idx_v9]

/-- The second bias row repeated down the rows: entry (r, j) is b2 j. -/
theorem v12_at (r : Fin 10000) (j : Fin 128) : val_main_v12 (F := Ideal) x5 (ix2 r j) = x5 (ix1 j) := by
  rw [val_main_v12_apply, idx_v12, val_main_v11_apply, idx_v11]

/-- The second zero matrix: every entry is 0. -/
theorem v14_at (i : S10000x128.Idx) : val_main_v14 (F := Ideal) i = (0 : EReal) := by
  rw [val_main_v14_apply, val_main_cst_0_apply]
  exact Ideal.ofBits_zero_f32

/-! ## The whole program -/

/-- The reference program's result is the two-layer graph convolution with the aggregation first, as a function
    of the six arguments (features, adjacency, first weights and bias, second weights and bias). -/
theorem val_eq_outR (x0 : (⟨Cert.ReferenceIdeal.S10000x128, .f32⟩ : BufTy).Contents (Elt Ideal))
    (x1 : (⟨Cert.ReferenceIdeal.S10000x10000, .f32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal)) :
    Cert.ReferenceIdeal.Read.val_main_v15 (F := Ideal) x0 x1 x2 x3 x4 x5 = Cert.Gcn.outR x0 x1 x2 x3 x4 x5 := by
  funext i
  obtain ⟨r, j, rfl⟩ : ∃ (r : Fin 10000) (j : Fin 128), i = ix2 r j := ⟨i 0, i 1, eq_ix2 i⟩
  rw [val_main_v15_apply, val_main_v13_apply, v10_at, v12_at, v14_at, Ideal.maximumf_def, Ideal.addf_def]
  rfl

end Cert.ReferenceIdeal.RefValue

end
-- ==== Proof.GcnLaw.lean ====
/-
  The law joining the two bracketings of the two-layer graph convolution on finite inputs.

  For real matrices A (n × n), X (n × d), W (h × d), entry (r, j) of A · (X · Wᵀ) is
  Σ_k A r k · (Σ_e X k e · W j e)  and entry (r, j) of (A · X) · Wᵀ is  Σ_e (Σ_k A r k · X k e) · W j e.
  Distributing the outer factor over the inner sum and exchanging the two finite sums turns one into the other.

  On the extended reals the same manipulation is not available in general (a product with an infinite factor
  does not distribute over a sum of mixed signs), so the argument runs through ℝ: every finite extended real is
  the image of a real number, the embedding ℝ → EReal preserves sums, products, finite sums and maxima, hence
  a layer applied to embedded real data is the embedding of the same layer computed in ℝ. That real layer does not
  depend on the bracketing, and its output is again real, so the argument applies to the second layer with the
  first layer's output as its feature matrix.
-/
import proofs.«124123_g37426345017912_cont_8to1_b_1199_19_alg».proof.Proof.GcnSpec
import Mathlib.Data.EReal.Basic
import Mathlib.Algebra.BigOperators.Ring.Finset
import Mathlib.Tactic.Ring

noncomputable section

namespace Cert.Gcn

open Idealize.ShloMosaic Idealize.ShloMosaic.ValueIdx

/-- The embedding of the reals into the extended reals preserves finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The embedding is monotone, so it preserves binary maxima. -/
theorem coe_max (a b : ℝ) : ((max a b : ℝ) : EReal) = max (a : EReal) (b : EReal) :=
  EReal.coe_strictMono.monotone.map_max

/-- Associativity of the triple product A · X · Wᵀ at one entry, in ℝ:
    Σ_k a k · (Σ_e X k e · w e) = Σ_e (Σ_k a k · X k e) · w e. -/
theorem sum_assoc_real {n d : Nat} (a : Fin n → ℝ) (X : Fin n → Fin d → ℝ) (w : Fin d → ℝ) :
    ∑ k, a k * ∑ e, X k e * w e = ∑ e, (∑ k, a k * X k e) * w e := by
  simp_rw [Finset.mul_sum, Finset.sum_mul]
  rw [Finset.sum_comm]
  refine Finset.sum_congr rfl fun e _ => Finset.sum_congr rfl fun k _ => ?_
  ring

/-- One layer computed in ℝ (with the dense map first; by `sum_assoc_real` the bracketing does not matter). -/
def layerReal {n d h : Nat} (A : Fin n → Fin n → ℝ) (X : Fin n → Fin d → ℝ) (W : Fin h → Fin d → ℝ)
    (b : Fin h → ℝ) : Fin n → Fin h → ℝ :=
  fun r j => max ((∑ k, A r k * ∑ e, X k e * W j e) + b j) 0

/-- The dense-map-first layer on embedded real data is the embedding of the real layer. -/
theorem layerK_coe {n d h : Nat} (A : Fin n → Fin n → ℝ) (X : Fin n → Fin d → ℝ) (W : Fin h → Fin d → ℝ)
    (b : Fin h → ℝ) :
    layerK (fun r k => (A r k : EReal)) (fun k e => (X k e : EReal)) (fun j e => (W j e : EReal))
        (fun j => (b j : EReal))
      = fun r j => ((layerReal A X W b r j : ℝ) : EReal) := by
  funext r j
  simp only [layerK, layerReal, coe_max, EReal.coe_add, EReal.coe_mul, EReal.coe_zero, coe_sum]

/-- The aggregation-first layer on embedded real data is the embedding of the same real layer. -/
theorem layerR_coe {n d h : Nat} (A : Fin n → Fin n → ℝ) (X : Fin n → Fin d → ℝ) (W : Fin h → Fin d → ℝ)
    (b : Fin h → ℝ) :
    layerR (fun r k => (A r k : EReal)) (fun k e => (X k e : EReal)) (fun j e => (W j e : EReal))
        (fun j => (b j : EReal))
      = fun r j => ((layerReal A X W b r j : ℝ) : EReal) := by
  funext r j
  simp only [layerR, layerReal]
  rw [sum_assoc_real (A r) X (W j)]
  simp only [coe_max, EReal.coe_add, EReal.coe_mul, EReal.coe_zero, coe_sum]

/-- On real-valued data the two bracketings of one layer agree. -/
theorem layerK_eq_layerR {n d h : Nat} (A : Fin n → Fin n → ℝ) (X : Fin n → Fin d → ℝ) (W : Fin h → Fin d → ℝ)
    (b : Fin h → ℝ) :
    layerK (fun r k => (A r k : EReal)) (fun k e => (X k e : EReal)) (fun j e => (W j e : EReal))
        (fun j => (b j : EReal))
      = layerR (fun r k => (A r k : EReal)) (fun k e => (X k e : EReal)) (fun j e => (W j e : EReal))
        (fun j => (b j : EReal)) :=
  (layerK_coe A X W b).trans (layerR_coe A X W b).symm

/-- Two dense-map-first layers on embedded real data: the embedding of two real layers. -/
theorem gcnK_coe {n d h o : Nat} (A : Fin n → Fin n → ℝ) (X : Fin n → Fin d → ℝ) (W1 : Fin h → Fin d → ℝ)
    (b1 : Fin h → ℝ) (W2 : Fin o → Fin h → ℝ) (b2 : Fin o → ℝ) :
    gcnK (fun r k => (A r k : EReal)) (fun k e => (X k e : EReal)) (fun j e => (W1 j e : EReal))
        (fun j => (b1 j : EReal)) (fun j e => (W2 j e : EReal)) (fun j => (b2 j : EReal))
      = fun r j => ((layerReal A (layerReal A X W1 b1) W2 b2 r j : ℝ) : EReal) := by
  unfold gcnK
  rw [layerK_coe A X W1 b1]
  exact layerK_coe A (layerReal A X W1 b1) W2 b2

/-- Two aggregation-first layers on embedded real data: the embedding of the same two real layers. -/
theorem gcnR_coe {n d h o : Nat} (A : Fin n → Fin n → ℝ) (X : Fin n → Fin d → ℝ) (W1 : Fin h → Fin d → ℝ)
    (b1 : Fin h → ℝ) (W2 : Fin o → Fin h → ℝ) (b2 : Fin o → ℝ) :
    gcnR (fun r k => (A r k : EReal)) (fun k e => (X k e : EReal)) (fun j e => (W1 j e : EReal))
        (fun j => (b1 j : EReal)) (fun j e => (W2 j e : EReal)) (fun j => (b2 j : EReal))
      = fun r j => ((layerReal A (layerReal A X W1 b1) W2 b2 r j : ℝ) : EReal) := by
  unfold gcnR
  rw [layerR_coe A X W1 b1]
  exact layerR_coe A (layerReal A X W1 b1) W2 b2

/-- On real-valued data the two bracketings of the two-layer network agree. -/
theorem gcnK_eq_gcnR {n d h o : Nat} (A : Fin n → Fin n → ℝ) (X : Fin n → Fin d → ℝ) (W1 : Fin h → Fin d → ℝ)
    (b1 : Fin h → ℝ) (W2 : Fin o → Fin h → ℝ) (b2 : Fin o → ℝ) :
    gcnK (fun r k => (A r k : EReal)) (fun k e => (X k e : EReal)) (fun j e => (W1 j e : EReal))
        (fun j => (b1 j : EReal)) (fun j e => (W2 j e : EReal)) (fun j => (b2 j : EReal))
      = gcnR (fun r k => (A r k : EReal)) (fun k e => (X k e : EReal)) (fun j e => (W1 j e : EReal))
        (fun j => (b1 j : EReal)) (fun j e => (W2 j e : EReal)) (fun j => (b2 j : EReal)) :=
  (gcnK_coe A X W1 b1 W2 b2).trans (gcnR_coe A X W1 b1 W2 b2).symm

/-- The network on arrays: with every entry of every argument finite, the dense-map-first and the
    aggregation-first arrangements give the same result at every index. -/
theorem outK_eq_outR (x : SX.Idx → EReal) (adj : SA.Idx → EReal) (w1 : SW.Idx → EReal) (b1 : SB.Idx → EReal)
    (w2 : SW.Idx → EReal) (b2 : SB.Idx → EReal)
    (hx : ∀ i, ∃ r : ℝ, x i = (r : EReal)) (hadj : ∀ i, ∃ r : ℝ, adj i = (r : EReal))
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) :
    outK x adj w1 b1 w2 b2 = outR x adj w1 b1 w2 b2 := by
  choose xr hxr using hx
  choose ar har using hadj
  choose w1r hw1r using hw1
  choose b1r hb1r using hb1
  choose w2r hw2r using hw2
  choose b2r hb2r using hb2
  obtain rfl : x = fun i => (xr i : EReal) := funext hxr
  obtain rfl : adj = fun i => (ar i : EReal) := funext har
  obtain rfl : w1 = fun i => (w1r i : EReal) := funext hw1r
  obtain rfl : b1 = fun i => (b1r i : EReal) := funext hb1r
  obtain rfl : w2 = fun i => (w2r i : EReal) := funext hw2r
  obtain rfl : b2 = fun i => (b2r i : EReal) := funext hb2r
  funext i
  unfold outK outR
  exact congrFun (congrFun (gcnK_eq_gcnR (n := 10000) (d := 128) (h := 128) (o := 128)
    (fun r k => ar (ix2 r k)) (fun k e => xr (ix2 k e)) (fun j e => w1r (ix2 j e)) (fun j => b1r (ix1 j))
    (fun j e => w2r (ix2 j e)) (fun j => b2r (ix1 j))) (i 0)) (i 1)

end Cert.Gcn

end
-- ==== Proof.Finite.lean ====
/-
  Finite inputs are real inputs.

  The precondition says, of each of the six argument arrays a, that the conjunction over all entries of
  |a i| < +∞ holds, and that the six conjunctions hold together. Over the extended reals |x| is max x (-x),
  which is +∞ at both infinities, so |x| < +∞ says exactly that x is a real number. Hence under the
  precondition every entry of every argument array is (the coercion of) a real.

  The argument is made once, for one array of any shape reduced over all of its axes (`real_of_all`), and
  then read six times off the precondition (`real_of_pre`).
-/
import proofs.«124123_g37426345017912_cont_8to1_b_1199_19_alg».proof.Defs
import Idealize.ShloMosaic.Lib.ReduceAll
import Idealize.ShloMosaic.Lib.ValueIdx

noncomputable section

namespace Cert.KernelIdeal.Finite

open Idealize.ShloMosaic Idealize.SL.Sem

/-- The single-precision pattern with sign 0, exponent all ones and significand 0 denotes +∞. -/
theorem inf_pattern : (Ideal.ofBits .f32 0x7F800000#32 : EReal) = ⊤ := by
  simp [Ideal.ofBits, Ideal.ieee]

/-- An extended real whose absolute value max a (-a) is below +∞ is a real: at a = -∞ the maximum is
    -(-∞) = +∞, at a = +∞ it is a itself, and neither is below +∞. -/
theorem real_of_abs_lt_top (a : EReal) (h : max a (-a) < ⊤) : ∃ r : ℝ, a = (r : EReal) := by
  induction a using EReal.rec with
  | bot => simp at h
  | coe r => exact ⟨r, rfl⟩
  | top => simp at h

/-- One array of any shape. If the conjunction, over all axes, of the entrywise comparisons |x i| < bound i
    is 1, and bound is +∞ everywhere, then every entry of x is a real. (The result shape t has a single
    index, i.e. the reduction runs over every axis, so each entry of x takes part in the one conjunction.) -/
theorem real_of_all {s t u : Shape} {axes : List (Fin s.rank)} [Subsingleton t.Idx]
    (x : FVec Ideal s .f32) (bound : FVec Ideal s .f32) (hb : ∀ i, bound i = (⊤ : EReal))
    (init : IVec u 1) (h : s.ReducesTo axes t) (hu : 0 < u.numel) (j : t.Idx)
    (e : Host.reduce IntOp.andi (cmpf .olt (Host.absf x) bound) init h hu j = 1#1) (i : s.Idx) :
    ∃ r : ℝ, x i = (r : EReal) := by
  -- the conjunction is 1, so its i-th conjunct is 1
  have hi := Host.reduce_andi_all _ init h hu j e i
  apply real_of_abs_lt_top
  -- that conjunct is the truth value of  max (x i) (-(x i)) < bound i
  have hi' : Ideal.cmp .olt (max (x i) (-(x i))) (bound i) = 1#1 := hi
  rw [hb i] at hi'
  -- were the inequality false, the truth value would be 0, not 1
  by_contra hlt
  have : Ideal.cmp .olt (max (x i) (-(x i))) ⊤ = 0#1 := by
    simp only [Ideal.cmp, hlt, decide_false]; rfl
  rw [this] at hi'
  exact absurd hi' (by decide)

/-- The rank-0 shape has exactly one index (a function out of the empty type). -/
instance : Subsingleton Cert.Pre_finite_inputs.S_.Idx := ⟨fun a b => funext fun d => d.elim0⟩

variable [Cert.Pre_finite_inputs.Facts]

/-- Under the precondition, on every device, every entry of each of the six argument arrays is a real.
    The precondition is a left-nested conjunction  ((((p0 ∧ p1) ∧ p2) ∧ p3) ∧ p4) ∧ p5  of six scalars, p_k the
    conjunction over all entries of argument k of |entry| < +∞; each p_k = 1 gives its array by `real_of_all`,
    the bound being the constant +∞ pattern read at every index. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  -- the precondition is an equation of rank-0 arrays: read it at their one index
  have h0 := congrFun (h c) ValueIdx.ix0
  dsimp only [Cert.Pre_finite_inputs.fn, Cert.Pre_finite_inputs.fn_part1] at h0
  -- a conjunction of two bits is 1 exactly when both are
  simp only [andi, IntOp.andi_eq_one] at h0
  obtain ⟨⟨⟨⟨⟨e0, e1⟩, e2⟩, e3⟩, e4⟩, e5⟩ := h0
  exact ⟨fun i => real_of_all _ _ (fun _ => inf_pattern) _ _ _ _ e0 i,
    fun i => real_of_all _ _ (fun _ => inf_pattern) _ _ _ _ e1 i,
    fun i => real_of_all _ _ (fun _ => inf_pattern) _ _ _ _ e2 i,
    fun i => real_of_all _ _ (fun _ => inf_pattern) _ _ _ _ e3 i,
    fun i => real_of_all _ _ (fun _ => inf_pattern) _ _ _ _ e4 i,
    fun i => real_of_all _ _ (fun _ => inf_pattern) _ _ _ _ e5 i⟩

end Cert.KernelIdeal.Finite

end
-- ==== Proof.lean ====
/-
  A two-layer graph convolution over a dense adjacency, out = max(A·max(A·X·W1ᵀ + b1, 0)·W2ᵀ + b2, 0), computed by one
  kernel launch over a grid of two passes of 25 row blocks, against its plain reference.

  The kernel brackets each layer's product as A·(H·Wᵀ): it forms H·Wᵀ once (128 columns), keeps it in a scratch
  buffer, and streams the adjacency's row blocks against it; the reference computes (A·H)·Wᵀ. The two agree exactly
  when the matrix product is associative, which it is on real entries (distributivity and exchanging two finite
  sums) and is not on all extended reals; the precondition that every input entry is finite is what makes the
  equality hold, and it is used for nothing else.

  The five conjuncts:
    * the two kernels' frames — each runs to the end, faults nowhere and leaves its arguments unchanged — come from the
      body obligation of the launch, proved once for any float instance: the four cases of the grid, an invariant
      that says what the three scratch buffers hold before each point, the launch over the whole grid;
    * the reference's frame is its run with the result dropped;
    * the idealization rewrote nothing, so there is nothing to preserve;
    * the two results: the kernel's result buffer holds the network with the dense map first, the reference's the
      network with the aggregation first, each of its own arguments; the arguments agree, and on finite arguments the
      two networks are one function.
-/
import proofs.«124123_g37426345017912_cont_8to1_b_1199_19_alg».proof.Defs
import proofs.«124123_g37426345017912_cont_8to1_b_1199_19_alg».proof.Proof.Gen.Kernel
import proofs.«124123_g37426345017912_cont_8to1_b_1199_19_alg».proof.Proof.Gen.KernelIdeal
import proofs.«124123_g37426345017912_cont_8to1_b_1199_19_alg».proof.Proof.Gen.ReferenceIdeal
import proofs.«124123_g37426345017912_cont_8to1_b_1199_19_alg».proof.Proof.Gen.Pre_finite_inputs
import proofs.«124123_g37426345017912_cont_8to1_b_1199_19_alg».proof.Proof.Gen.ReferenceIdeal.Run
import proofs.«124123_g37426345017912_cont_8to1_b_1199_19_alg».proof.Proof.Gen.ReferenceIdeal.Read
import proofs.«124123_g37426345017912_cont_8to1_b_1199_19_alg».proof.Proof.Words.Obligation
import proofs.«124123_g37426345017912_cont_8to1_b_1199_19_alg».proof.Proof.Ideal.Result
import proofs.«124123_g37426345017912_cont_8to1_b_1199_19_alg».proof.Proof.RefValue
import proofs.«124123_g37426345017912_cont_8to1_b_1199_19_alg».proof.Proof.GcnLaw
import proofs.«124123_g37426345017912_cont_8to1_b_1199_19_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments, all finite, both programs end with the same result: the kernel's is
    the network with the dense map first of its arguments, the reference's the network with the aggregation first of
    its own, and on finite arrays the two are equal. -/
theorem algebraic : Cert.algebraic_KernelIdeal_ReferenceIdeal := by
  intro m ρ m' ρ' hpre hagree
  refine ⟨fun c => Cert.Gcn.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, f5⟩ := Cert.KernelIdeal.Finite.real_of_pre m hpre c
  rw [(hagree c).1, (hagree c).2.1, (hagree c).2.2.1, (hagree c).2.2.2.1, (hagree c).2.2.2.2.1, (hagree c).2.2.2.2.2]
  rw [Cert.ReferenceIdeal.Read.val_main_v15_eq, Cert.ReferenceIdeal.RefValue.val_eq_outR]
  exact (Cert.Gcn.outK_eq_outR _ _ _ _ _ _ f0 f1 f2 f3 f4 f5).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
